-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S10000x1 : Shape := ⟨2, ![10000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩

abbrev nBuf : Space → Nat
  | .hbm => 91
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1, .i32⟩
  | .hbm, ⟨40, _⟩ => ⟨S_, .i32⟩
  | .hbm, ⟨41, _⟩ => ⟨S1600000x1, .i32⟩
  | .hbm, ⟨42, _⟩ => ⟨S1600000x1, .i1⟩
  | .hbm, ⟨43, _⟩ => ⟨S1x1, .i32⟩
  | .hbm, ⟨44, _⟩ => ⟨S1600000x1, .i32⟩
  | .hbm, ⟨45, _⟩ => ⟨S1600000x1, .i1⟩
  | .hbm, ⟨46, _⟩ => ⟨S1600000x1, .i1⟩
  | .hbm, ⟨47, _⟩ => ⟨S_, .i1⟩
  | .hbm, ⟨48, _⟩ => ⟨S1600000, .i1⟩
  | .hbm, ⟨49, _⟩ => ⟨S1600000x128, .f32⟩
  | .hbm, ⟨50, _⟩ => ⟨S1600000x128, .i1⟩
  | .hbm, ⟨51, _⟩ => ⟨S_, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x1, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1, .i32⟩
  | .hbm, ⟨71, _⟩ => ⟨S_, .i32⟩
  | .hbm, ⟨72, _⟩ => ⟨S1600000x1, .i32⟩
  | .hbm, ⟨73, _⟩ => ⟨S1600000x1, .i1⟩
  | .hbm, ⟨74, _⟩ => ⟨S1x1, .i32⟩
  | .hbm, ⟨75, _⟩ => ⟨S1600000x1, .i32⟩
  | .hbm, ⟨76, _⟩ => ⟨S1600000x1, .i1⟩
  | .hbm, ⟨77, _⟩ => ⟨S1600000x1, .i1⟩
  | .hbm, ⟨78, _⟩ => ⟨S_, .i1⟩
  | .hbm, ⟨79, _⟩ => ⟨S1600000, .i1⟩
  | .hbm, ⟨80, _⟩ => ⟨S1600000x128, .f32⟩
  | .hbm, ⟨81, _⟩ => ⟨S1600000x128, .i1⟩
  | .hbm, ⟨82, _⟩ => ⟨S_, .f32⟩
  | .hbm, ⟨83, _⟩ => ⟨S1600000x128, .f32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x1, .f32⟩
  | .hbm, ⟨90, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x1, .f32⟩
  | .local _ .vmem, ⟨17, _⟩ => ⟨S10000x1, .f32⟩
  | .local _ .vmem, ⟨18, _⟩ => ⟨S128x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S128, .f32⟩
  | .local _ .vmem, ⟨26, _⟩ => ⟨S10000x128, .f32⟩
  | .local _ .vmem, ⟨27, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_v14 : Ref sig .tc := ⟨.hbm, 50, rfl⟩
abbrev main_call2_cst : Ref sig .tc := ⟨.hbm, 51, rfl⟩
abbrev main_call2_v15 : Ref sig .tc := ⟨.hbm, 52, rfl⟩
abbrev main_v14 : Ref sig .tc := ⟨.hbm, 53, rfl⟩
abbrev main_cst_5 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_call3_c : Ref sig .tc := ⟨.hbm, 62, rfl⟩
abbrev main_call3_v0 : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_c_1 : Ref sig .tc := ⟨.hbm, 70, rfl⟩
abbrev main_call3_c_2 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_3 : Ref sig .tc := ⟨.hbm, 78, rfl⟩
abbrev main_call3_v12 : Ref sig .tc := ⟨.hbm, 79, rfl⟩
abbrev main_call3_v13 : Ref sig .tc := ⟨.hbm, 80, rfl⟩
abbrev main_call3_v14 : Ref sig .tc := ⟨.hbm, 81, rfl⟩
abbrev main_call3_cst : Ref sig .tc := ⟨.hbm, 82, rfl⟩
abbrev main_call3_v15 : Ref sig .tc := ⟨.hbm, 83, rfl⟩
abbrev main_v22 : Ref sig .tc := ⟨.hbm, 84, rfl⟩
abbrev main_cst_6 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v25) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v27) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩

abbrev nBuf : Space → Nat
  | .hbm => 109
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1, .i32⟩
  | .hbm, ⟨42, _⟩ => ⟨S_, .i32⟩
  | .hbm, ⟨43, _⟩ => ⟨S1600000x1, .i32⟩
  | .hbm, ⟨44, _⟩ => ⟨S1600000x1, .i1⟩
  | .hbm, ⟨45, _⟩ => ⟨S1x1, .i32⟩
  | .hbm, ⟨46, _⟩ => ⟨S1600000x1, .i32⟩
  | .hbm, ⟨47, _⟩ => ⟨S1600000x1, .i1⟩
  | .hbm, ⟨48, _⟩ => ⟨S1600000x1, .i1⟩
  | .hbm, ⟨49, _⟩ => ⟨S_, .i1⟩
  | .hbm, ⟨50, _⟩ => ⟨S1600000, .i1⟩
  | .hbm, ⟨51, _⟩ => ⟨S1600000x128, .f32⟩
  | .hbm, ⟨52, _⟩ => ⟨S1600000x128, .i1⟩
  | .hbm, ⟨53, _⟩ => ⟨S_, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1, .i32⟩
  | .hbm, ⟨82, _⟩ => ⟨S_, .i32⟩
  | .hbm, ⟨83, _⟩ => ⟨S1600000x1, .i32⟩
  | .hbm, ⟨84, _⟩ => ⟨S1600000x1, .i1⟩
  | .hbm, ⟨85, _⟩ => ⟨S1x1, .i32⟩
  | .hbm, ⟨86, _⟩ => ⟨S1600000x1, .i32⟩
  | .hbm, ⟨87, _⟩ => ⟨S1600000x1, .i1⟩
  | .hbm, ⟨88, _⟩ => ⟨S1600000x1, .i1⟩
  | .hbm, ⟨89, _⟩ => ⟨S_, .i1⟩
  | .hbm, ⟨90, _⟩ => ⟨S1600000, .i1⟩
  | .hbm, ⟨91, _⟩ => ⟨S1600000x128, .f32⟩
  | .hbm, ⟨92, _⟩ => ⟨S1600000x128, .i1⟩
  | .hbm, ⟨93, _⟩ => ⟨S_, .f32⟩
  | .hbm, ⟨94, _⟩ => ⟨S1600000x128, .f32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S100000x1, .f32⟩
  | .hbm, ⟨101, _⟩ => ⟨S100000x128, .f32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S100000x128, .f32⟩
  | .hbm, ⟨108, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_call2_cst : Ref sig .tc := ⟨.hbm, 53, rfl⟩
abbrev main_call2_v15 : Ref sig .tc := ⟨.hbm, 54, rfl⟩
abbrev main_v16 : Ref sig .tc := ⟨.hbm, 55, rfl⟩
abbrev main_cst_5 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_call3_cst : Ref sig .tc := ⟨.hbm, 66, rfl⟩
abbrev main_call3_v0 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_call4_c : Ref sig .tc := ⟨.hbm, 73, rfl⟩
abbrev main_call4_v0 : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_v5 : Ref sig .tc := ⟨.hbm, 80, rfl⟩
abbrev main_call4_c_1 : Ref sig .tc := ⟨.hbm, 81, rfl⟩
abbrev main_call4_c_2 : Ref sig .tc := ⟨.hbm, 82, rfl⟩
abbrev main_call4_v6 : Ref sig .tc := ⟨.hbm, 83, rfl⟩
abbrev main_call4_v7 : Ref sig .tc := ⟨.hbm, 84, rfl⟩
abbrev main_call4_v8 : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_c_3 : Ref sig .tc := ⟨.hbm, 89, rfl⟩
abbrev main_call4_v12 : Ref sig .tc := ⟨.hbm, 90, rfl⟩
abbrev main_call4_v13 : Ref sig .tc := ⟨.hbm, 91, rfl⟩
abbrev main_call4_v14 : Ref sig .tc := ⟨.hbm, 92, rfl⟩
abbrev main_call4_cst : Ref sig .tc := ⟨.hbm, 93, rfl⟩
abbrev main_call4_v15 : Ref sig .tc := ⟨.hbm, 94, rfl⟩
abbrev main_v31 : Ref sig .tc := ⟨.hbm, 95, rfl⟩
abbrev main_cst_6 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_call5_cst : Ref sig .tc := ⟨.hbm, 106, rfl⟩
abbrev main_call5_v0 : Ref sig .tc := ⟨.hbm, 107, rfl⟩
abbrev main_v41 : Ref sig .tc := ⟨.hbm, 108, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's whole run, with the result array named. The program is fourteen segments: stretches of
  whole-array operations and four row-tiled regions. Its buffer contents at the end are the fold W14 of those segments
  over the launch memory; every weakly fair execution ends with each buffer that outlives the regions at W14's value.
  Here that is read at the result buffer as well as at the seven arguments (which end as launched).
-/
import proofs.«141765_j13494787244283_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates; the result buffer ends at the fold's value there, the arguments as launched. -/
theorem run : θ_run defs (onTc (τ := τ) (main (F := F))) ⟨m, fun _ => 0, ρ⟩ (fun r => ∀ c : Dev nD,
      r.2.mem ((c.tc : Thread nD τ).loc main_v27) = W14 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v27 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩)

end Cert.KernelIdeal.ResultRun

end
-- ==== Proof.Spec.lean ====
/-
  A two-layer graph convolution with symmetric degree normalisation, as one function of the argument arrays.

  Nodes 0 … 99999 carry 128 features; 1600000 edges go from src(e) to dst(e). For an endpoint array idx,
  degNorm idx is, per node, 1 / sqrt(max(1, number of edges e with idx(e) = that node)). One layer sends features x to
      max( (sum over edges e into node r of y(src e, ·)) · degNorm dst (r) + b , 0 ),   y = (x · degNorm src (row)) × W,
  where reading row src(e) of y goes through the gather with its out-of-range fill, and the sum over edges is the
  scatter-add into zeros. The pieces below are written in the operations of the whole-array program, once; the
  gather / scatter-add and the degree count are carried as they are and never opened: both programs apply the very
  same operations there. What differs between the two programs is only how `transform` and `post` are computed
  (ten thousand rows at a time, or all rows at once), and those two are entry-by-entry row-wise.
-/
import proofs.«141765_j13494787244283_1_alg».proof.ReferenceIdeal
import Idealize.ShloMosaic.PureOps.Ideal

noncomputable section

namespace Cert.GraphConv

open Idealize.ShloMosaic Cert.ReferenceIdeal Cert.ReferenceIdeal.Facts₀ Cert.ReferenceIdeal.Facts

variable [Cert.ReferenceIdeal.Facts]

/-- Node features [100000, 128]. -/
abbrev Feat : Type := FVec Ideal S100000x128 .f32
/-- One endpoint per edge [1600000]. -/
abbrev Edge : Type := IVec S1600000 32
/-- One number per node [100000]. -/
abbrev NodeVec : Type := FVec Ideal S100000 .f32
/-- The same as a column [100000, 1]. -/
abbrev NodeCol : Type := FVec Ideal S100000x1 .f32
/-- A weight matrix [128, 128]. -/
abbrev Weight : Type := FVec Ideal S128x128 .f32
/-- A bias vector [128]. -/
abbrev Bias : Type := FVec Ideal S128 .f32

/-- Per node: 1 / sqrt(max(1, number of edges whose endpoint `idx` is that node)) — ones scatter-added into zeros,
    clamped below at 1, reciprocal square root. -/
def degNorm (idx : Edge) : NodeVec :=
  Host.rsqrt (F := Ideal)
    (maximumf (F := Ideal)
      (broadcastInDim S100000 ![] bcast_S_S100000 (id (constant (F := Ideal) S_ .f32 0x3F800000#32)))
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32))))

/-- A per-node vector as a column. -/
def col (n : NodeVec) : NodeCol := broadcastInDim S100000x1 ![0] bcast_S100000_S100000x1_0 n

/-- Every row scaled by its node's factor, then multiplied by the weight matrix. -/
def transform (x : Feat) (cl : NodeCol) (W : Weight) : Feat :=
  Host.dotGeneral (F := Ideal) dot_S100000x128_S128x128_S100000x128_1_0_0_1_n_n none
    (mulf (F := Ideal) x (broadcastInDim S100000x128 ![0, 1] bcast_S100000x1_S100000x128_0_1 cl)) W

/-- The row index each edge reads, as a column [1600000, 1]: a negative index counted from the end. -/
def takeIdx (src : Edge) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge: is that row index inside 0 … 99999. -/
def takeOk (src : Edge) : IVec S1600000 1 :=
  Host.reduce IntOp.andi
    (andi (cmpi .sge (takeIdx src) (broadcastInDim S1600000x1 ![] bcast_S_S1600000x1 (constantI S_ 32 0#32)))
      (cmpi .sle (takeIdx src)
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- Row src(e) of `h` for every edge e, the fill value where the index is out of range. -/
def take (h : Feat) (src : Edge) : FVec Ideal S1600000x128 .f32 :=
  select (broadcastInDim S1600000x128 ![0] bcast_S1600000_S1600000x128_0 (takeOk src))
    (Host.gather gather_S100000x128_S1600000x1_S1600000x128_1_0_n_n_0_1_1128 h (takeIdx src))
    (broadcastInDim S1600000x128 ![] bcast_S_S1600000x128 (constant (F := Ideal) S_ .f32 0x7FC00000#32))

/-- Per node: the sum, over the edges into it, of the source rows of `h`. -/
def agg (h : Feat) (src dst : Edge) : Feat :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (take h src)

/-- Every row scaled by its node's factor, the bias added, negatives cut to zero. -/
def post (a : Feat) (cl : NodeCol) (b : Bias) : Feat :=
  maximumf (F := Ideal)
    (addf (F := Ideal) (mulf (F := Ideal) a (broadcastInDim S100000x128 ![0, 1] bcast_S100000x1_S100000x128_0_1 cl))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- One layer. -/
def layer (x : Feat) (W : Weight) (b : Bias) (src dst : Edge) : Feat :=
  post (agg (transform x (col (degNorm src)) W) src dst) (col (degNorm dst)) b

/-- Two layers. -/
def G (x : Feat) (src dst : Edge) (W1 : Weight) (b1 : Bias) (W2 : Weight) (b2 : Bias) : Feat :=
  layer (layer x W1 b1 src dst) W2 b2 src dst

end Cert.GraphConv

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibPlainProduct.lean ====
/-
  The plain matrix product — an [M, K] matrix times a [K, N] matrix, the left operand's axis 1 contracted against the
  right operand's axis 0, no batch axis — read at an entry (p, q) as the sum over k of x(p, k) · w(k, q), on the extended
  reals: for the host's product and for the matrix unit's product into a zero accumulator. The operands' indices at
  contraction position k are computed once here, for every M, K, N, so a caller only names its entry.
-/
import proofs.«141765_j13494787244283_1_alg».proof.Proof.LibDotSum

namespace Idealize.ShloMosaic.PlainProduct

open Idealize.ShloMosaic Idealize.ShloMosaic.ValueIdx

variable (M K N : Nat)

theorem contr_rank : (DotDims.plain M K N).contr.rank = 1 := rfl

theorem contr_size : (DotDims.plain M K N).contr.size ⟨0, by rw [contr_rank]; omega⟩ = K := rfl

/-- The left operand is read at row p, column k. -/
theorem lhsIdx_eq (p : Fin M) (q : Fin N) (k : Fin K) :
    (DotDims.plain M K N).lhsIdx (ix2 p q)
      ((contrEquiv1 (DotDims.plain M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.plain M K N).lhsIdx_val_of_single rfl (ix2 p q) _).trans
      (contrEquiv1_symm_val (DotDims.plain M K N) K (contr_rank M K N) (contr_size M K N) k)

/-- The right operand is read at row k, column q. -/
theorem rhsIdx_eq (p : Fin M) (q : Fin N) (k : Fin K) :
    (DotDims.plain M K N).rhsIdx (ix2 p q)
      ((contrEquiv1 (DotDims.plain M K N) K (contr_rank M K N) (contr_size M K N)).symm k) = ix2 k q := by
  funext a
  apply Fin.ext
  match a with
  | ⟨0, _⟩ =>
    exact ((DotDims.plain M K N).rhsIdx_val_of_single rfl (ix2 p q) _).trans
      (contrEquiv1_symm_val (DotDims.plain M K N) K (contr_rank M K N) (contr_size M K N) k)
  | ⟨1, _⟩ =>
    unfold DotDims.rhsIdx
    split
    · next hb => exact absurd hb List.not_mem_nil
    · split
      · rfl
      · next hn => exact absurd (List.mem_singleton.mpr rfl) hn

/-- The host's plain product at (p, q). -/
theorem dotGeneral_at {φ₁ φ₂ : FTy} (x : FVec Ideal ⟨2, ![M, K]⟩ φ₁) (w : FVec Ideal ⟨2, ![K, N]⟩ φ₂) (p : Fin M) (q : Fin N) :
    Host.dotGeneral (DotDims.plain M K N) none x w (ix2 p q) = ∑ k : Fin K, x (ix2 p k) * w (ix2 k q) :=
  DotSum.dotGeneral_eq_sum (DotDims.plain M K N) K (contr_rank M K N) (contr_size M K N) x w (ix2 p q)
    (fun k => ix2 p k) (fun k => ix2 k q) (lhsIdx_eq M K N p q) (rhsIdx_eq M K N p q)

/-- The matrix unit's plain product into zeros at (p, q). -/
theorem matmul_zero_at {φ₁ φ₂ : FTy} (x : FVec Ideal ⟨2, ![M, K]⟩ φ₁) (w : FVec Ideal ⟨2, ![K, N]⟩ φ₂) (p : Fin M) (q : Fin N) :
    matmul (DotDims.plain M K N) none x w (constant ⟨2, ![M, N]⟩ .f32 0x00000000#32) (ix2 p q)
      = ∑ k : Fin K, x (ix2 p k) * w (ix2 k q) :=
  DotSum.matmul_zero_eq_sum (DotDims.plain M K N) K (contr_rank M K N) (contr_size M K N) x w (ix2 p q)
    (fun k => ix2 p k) (fun k => ix2 k q) (lhsIdx_eq M K N p q) (rhsIdx_eq M K N p q)

end Idealize.ShloMosaic.PlainProduct
-- ==== Proof.LibRowBlock.lean ====
/-
  Rows t·R, …, t·R + R − 1 of a [B, n] array form an [R, n] array. A program that works on each row by itself —
  entrywise arithmetic, a bias row added to every row, a matrix product with a fixed right factor, a run of columns
  cut out, arrays joined along their columns — produces, from those R rows, the same R rows of what it produces from
  the whole array. This file states that fact one operation at a time, on the extended reals, with the whole-array
  side written in the host's operations and the R-row side in the vector unit's, so that a kernel working through an
  array R rows at a time can be compared with a program working on the whole array at once.
  "IsRows t x' x" says: x' is rows t·R … t·R + R − 1 of x. The float formats of the two sides are free (on the
  extended reals a change of format is the identity), so a cast on one side needs no lemma of its own.
-/
import proofs.«141765_j13494787244283_1_alg».proof.Proof.LibPlainProduct
import Idealize.ShloMosaic.Lib.Pipeline.Value
import Idealize.ShloMosaic.Lib.ValueLayout
import Idealize.ShloMosaic.Lib.IdealHost

noncomputable section

open scoped BigOperators

namespace Idealize.ShloMosaic.RowBlock

open Idealize.ShloMosaic Idealize.ShloMosaic.ValueIdx

variable {B R : ℕ}

/-- Row p of the t-th group of R rows, as a row of the whole array. -/
abbrev row (t : ℕ) (h : t * R + R ≤ B) (p : Fin R) : Fin B := ⟨t * R + p.val, by have := p.isLt; omega⟩

/-- x' is rows t·R … t·R + R − 1 of x. -/
def IsRows {n : ℕ} (t : ℕ) (h : t * R + R ≤ B) (x' : (⟨2, ![R, n]⟩ : Shape).Idx → EReal)
    (x : (⟨2, ![B, n]⟩ : Shape).Idx → EReal) : Prop :=
  ∀ (p : Fin R) (q : Fin n), x' (ix2 p q) = x (ix2 (row t h p) q)

variable {t : ℕ} {h : t * R + R ≤ B}

/-- The rows themselves, as an array. -/
def rows {n : ℕ} (t : ℕ) (h : t * R + R ≤ B) (x : (⟨2, ![B, n]⟩ : Shape).Idx → EReal) :
    (⟨2, ![R, n]⟩ : Shape).Idx → EReal :=
  fun j => x (ix2 (row t h ⟨(j 0).val, idx2_lt0 j⟩) ⟨(j 1).val, idx2_lt1 j⟩)

theorem isRows_rows {n : ℕ} (x : (⟨2, ![B, n]⟩ : Shape).Idx → EReal) : IsRows t h (rows t h x) x :=
  fun _ _ => rfl

theorem IsRows.eq_rows {n : ℕ} {x' : (⟨2, ![R, n]⟩ : Shape).Idx → EReal} {x : (⟨2, ![B, n]⟩ : Shape).Idx → EReal}
    (hx : IsRows t h x' x) : x' = rows t h x := by
  funext j
  obtain ⟨p, q, rfl⟩ : ∃ (p : Fin R) (q : Fin n), j = ix2 p q := ⟨j 0, j 1, eq_ix2 j⟩
  exact hx p q

/-- A cast of the R rows to their own shape changes nothing. -/
theorem IsRows.castSelf {n : ℕ} {x' : (⟨2, ![R, n]⟩ : Shape).Idx → EReal} {x : (⟨2, ![B, n]⟩ : Shape).Idx → EReal}
    (hc : (⟨2, ![R, n]⟩ : Shape).ShapeCasts ⟨2, ![R, n]⟩) (hx : IsRows t h x' x) :
    IsRows t h (shapeCast ⟨2, ![R, n]⟩ x' hc) x := by
  rw [shapeCast_self]; exact hx

/-- A weight matrix cast to its own shape still agrees entry by entry. -/
theorem castSelf_entries {K N : ℕ} {w' w : (⟨2, ![K, N]⟩ : Shape).Idx → EReal}
    (hc : (⟨2, ![K, N]⟩ : Shape).ShapeCasts ⟨2, ![K, N]⟩) (hw : ∀ (k : Fin K) (q : Fin N), w' (ix2 k q) = w (ix2 k q)) :
    ∀ (k : Fin K) (q : Fin N), shapeCast ⟨2, ![K, N]⟩ w' hc (ix2 k q) = w (ix2 k q) := by
  rw [shapeCast_self]; exact hw

/-! ## Entrywise operations -/

section Entrywise

variable {n : ℕ} {φ φ' : FTy}
variable {a' b' : FVec Ideal ⟨2, ![R, n]⟩ φ'} {a b : FVec Ideal ⟨2, ![B, n]⟩ φ}

theorem IsRows.addf (ha : IsRows t h a' a) (hb : IsRows t h b' b) : IsRows t h (addf a' b') (addf a b) :=
  fun p q => congrArg₂ (· + ·) (ha p q) (hb p q)

theorem IsRows.subf (ha : IsRows t h a' a) (hb : IsRows t h b' b) : IsRows t h (subf a' b') (subf a b) :=
  fun p q => congrArg₂ (· - ·) (ha p q) (hb p q)

theorem IsRows.mulf (ha : IsRows t h a' a) (hb : IsRows t h b' b) : IsRows t h (mulf a' b') (mulf a b) :=
  fun p q => congrArg₂ (· * ·) (ha p q) (hb p q)

theorem IsRows.maximumf (ha : IsRows t h a' a) (hb : IsRows t h b' b) : IsRows t h (maximumf a' b') (maximumf a b) :=
  fun p q => congrArg₂ max (ha p q) (hb p q)

/-- A change of float format on the R-row side only. -/
theorem IsRows.truncf {ψ : FTy} {x : (⟨2, ![B, n]⟩ : Shape).Idx → EReal} (hψ : ψ.bits < φ'.bits) (ha : IsRows t h a' x) :
    IsRows t h (truncf ψ a' hψ) x :=
  fun p q => ha p q

/-- The vector unit's cosine against the host's. -/
theorem IsRows.cos (ha : IsRows t h a' a) : IsRows t h (cos a') (Host.cos a) :=
  fun p q => congrArg Ideal.cos (ha p q)

/-- The vector unit's hyperbolic tangent against the host's. -/
theorem IsRows.tanh (ha : IsRows t h a' a) : IsRows t h (tanh a') (Host.tanh a) :=
  fun p q => congrArg Ideal.tanh (ha p q)

/-- The logistic function against 1 / (1 + exp (−x)) spelt out in the host's operations: on the extended reals the
    logistic function is that quotient by definition, its values at −∞ and +∞ included. -/
theorem IsRows.logistic {one₁ one₂ : FVec Ideal ⟨2, ![B, n]⟩ φ} (h₁ : ∀ i, one₁ i = 1) (h₂ : ∀ i, one₂ i = 1)
    (ha : IsRows t h a' a) :
    IsRows t h (logistic a') (Host.divf one₁ (Idealize.ShloMosaic.addf one₂ (Host.exp (Host.negf a)))) := by
  intro p q
  show Ideal.logistic (a' (ix2 p q)) = Ideal.div (one₁ _) (one₂ _ + Ideal.exp (-(a _)))
  rw [h₁, h₂, ha p q]
  rfl

end Entrywise

/-! ## Constants and broadcasts -/

section Broadcasts

variable {n : ℕ}

/-- A scalar constant spread over the whole array against the same scalar spread over R rows. -/
theorem IsRows.const {φ : FTy} (c : BitVec φ.bits) (hb : (⟨0, ![]⟩ : Shape).BroadcastsInDim ⟨2, ![B, n]⟩ ![]) :
    IsRows t h (broadcast ⟨2, ![R, n]⟩ (Scalar.ofBits (F := Ideal) φ c))
      (broadcastInDim ⟨2, ![B, n]⟩ ![] hb (constant (F := Ideal) ⟨0, ![]⟩ φ c)) := by
  intro p q
  exact (broadcastInDim_apply ![] hb (constant (F := Ideal) ⟨0, ![]⟩ φ c) (ix2 (row t h p) q) ix0 (fun a => a.elim0)).symm

/-- The value of such a constant at any entry. -/
theorem const_apply {φ : FTy} (c : BitVec φ.bits) (hb : (⟨0, ![]⟩ : Shape).BroadcastsInDim ⟨2, ![B, n]⟩ ![])
    (i : (⟨2, ![B, n]⟩ : Shape).Idx) :
    broadcastInDim ⟨2, ![B, n]⟩ ![] hb (constant (F := Ideal) ⟨0, ![]⟩ φ c) i = Ideal.ofBits φ c :=
  broadcastInDim_apply ![] hb (constant (F := Ideal) ⟨0, ![]⟩ φ c) i ix0 (fun a => a.elim0)

/-- One row [1, n] repeated down the whole array (the host's way) against the same row repeated down R rows (the
    vector unit's way). -/
theorem IsRows.rowBroadcast (w : (⟨2, ![1, n]⟩ : Shape).Idx → EReal)
    (hB : (⟨2, ![1, n]⟩ : Shape).BroadcastsInDim ⟨2, ![B, n]⟩ ![0, 1])
    (hR : (⟨2, ![1, n]⟩ : Shape).Broadcasts ⟨2, ![R, n]⟩) :
    IsRows t h (broadcastTo ⟨2, ![R, n]⟩ w hR) (broadcastInDim ⟨2, ![B, n]⟩ ![0, 1] hB w) := by
  intro p q
  rw [broadcastTo_1b_ab_apply w hR p q]
  refine (broadcastInDim_apply ![0, 1] hB w (ix2 (row t h p) q) (ix2 (0 : Fin 1) q) fun ax => ?_).symm
  match ax with
  | ⟨0, _⟩ => rfl
  | ⟨1, _⟩ =>
    show q.val = if n = 1 then 0 else q.val
    split
    · have := q.isLt; omega
    · rfl

/-- A vector [n] made a row [1, n]: by a cast (the vector unit's way) or by a broadcast along the new axis (the
    host's way), the same row. -/
theorem rowOfVector (v : (⟨1, ![n]⟩ : Shape).Idx → EReal)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ v hc = broadcastInDim ⟨2, ![1, n]⟩ ![1] hb v := by
  funext j
  obtain ⟨u, q, rfl⟩ : ∃ (u : Fin 1) (q : Fin n), j = ix2 u q := ⟨j 0, j 1, eq_ix2 j⟩
  rw [shapeCast_a_1a_apply v hc u q]
  refine (broadcastInDim_apply ![1] hb v (ix2 u q) (ix1 q) fun ax => ?_).symm
  match ax with
  | ⟨0, _⟩ =>
    show q.val = if n = 1 then 0 else q.val
    split
    · have := q.isLt; omega
    · rfl

/-- A bias vector [n] added to every row: made a row and repeated down the whole array by two host broadcasts, against
    cast to a row and repeated down R rows by the vector unit. -/
theorem IsRows.bias (v : (⟨1, ![n]⟩ : Shape).Idx → EReal)
    (hc : (⟨1, ![n]⟩ : Shape).ShapeCasts ⟨2, ![1, n]⟩)
    (hb : (⟨1, ![n]⟩ : Shape).BroadcastsInDim ⟨2, ![1, n]⟩ ![1])
    (hB : (⟨2, ![1, n]⟩ : Shape).BroadcastsInDim ⟨2, ![B, n]⟩ ![0, 1])
    (hR : (⟨2, ![1, n]⟩ : Shape).Broadcasts ⟨2, ![R, n]⟩) :
    IsRows t h (broadcastTo ⟨2, ![R, n]⟩ (shapeCast ⟨2, ![1, n]⟩ v hc) hR)
      (broadcastInDim ⟨2, ![B, n]⟩ ![0, 1] hB (broadcastInDim ⟨2, ![1, n]⟩ ![1] hb v)) := by
  rw [rowOfVector v hc hb]
  exact IsRows.rowBroadcast _ hB hR

/-- One column [B, 1] repeated across n columns (the host's way) against its R rows repeated across n columns (the
    vector unit's way). -/
theorem IsRows.colBroadcast {y' : (⟨2, ![R, 1]⟩ : Shape).Idx → EReal} {y : (⟨2, ![B, 1]⟩ : Shape).Idx → EReal}
    (hy : IsRows t h y' y)
    (hB : (⟨2, ![B, 1]⟩ : Shape).BroadcastsInDim ⟨2, ![B, n]⟩ ![0, 1])
    (hR : (⟨2, ![R, 1]⟩ : Shape).Broadcasts ⟨2, ![R, n]⟩) :
    IsRows t h (broadcastTo ⟨2, ![R, n]⟩ y' hR) (broadcastInDim ⟨2, ![B, n]⟩ ![0, 1] hB y) := by
  intro p q
  have e1 : broadcastTo ⟨2, ![R, n]⟩ y' hR (ix2 p q) = y' (ix2 p (0 : Fin 1)) := by
    refine broadcastTo_apply y' hR (ix2 p q) (ix2 p (0 : Fin 1)) fun ax => ?_
    match ax with
    | ⟨0, _⟩ =>
      show p.val = if R = 1 then 0 else p.val
      split
      · have := p.isLt; omega
      · rfl
    | ⟨1, _⟩ => rfl
  have e2 : broadcastInDim ⟨2, ![B, n]⟩ ![0, 1] hB y (ix2 (row t h p) q) = y (ix2 (row t h p) (0 : Fin 1)) := by
    refine broadcastInDim_apply ![0, 1] hB y (ix2 (row t h p) q) (ix2 (row t h p) (0 : Fin 1)) fun ax => ?_
    match ax with
    | ⟨0, _⟩ =>
      show t * R + p.val = if B = 1 then 0 else t * R + p.val
      split
      · have := p.isLt; omega
      · rfl
    | ⟨1, _⟩ => rfl
  rw [e1, e2]
  exact hy p 0

end Broadcasts

/-! ## A matrix product with a fixed right factor -/

/-- The plain product [B, K] × [K, N] on the host against the matrix unit's product of the R rows with the same right
    factor into a zero accumulator: entry (p, q) of either is the sum over k of (row's entry k) · w(k, q). -/
theorem IsRows.dot {K N : ℕ} {φ₁ φ₂ φ₁' φ₂' : FTy}
    {l' : FVec Ideal ⟨2, ![R, K]⟩ φ₁'} {l : FVec Ideal ⟨2, ![B, K]⟩ φ₁}
    {w' : FVec Ideal ⟨2, ![K, N]⟩ φ₂'} {w : FVec Ideal ⟨2, ![K, N]⟩ φ₂}
    (hl : IsRows t h l' l) (hw : ∀ (k : Fin K) (q : Fin N), w' (ix2 k q) = w (ix2 k q)) :
    IsRows t h (matmul (DotDims.plain R K N) none l' w' (constant ⟨2, ![R, N]⟩ .f32 0x00000000#32))
      (Host.dotGeneral (DotDims.plain B K N) none l w) := by
  intro p q
  rw [PlainProduct.matmul_zero_at R K N l' w' p q, PlainProduct.dotGeneral_at B K N l w (row t h p) q]
  exact Finset.sum_congr rfl fun k _ => congrArg₂ (· * ·) (hl p k) (hw k q)

/-! ## Columns cut out and arrays joined along their columns -/

/-- Columns o … o + m − 1 cut out of the whole array against the same columns cut out of the R rows. -/
theorem IsRows.slice {n m : ℕ} (o : ℕ) {x' : (⟨2, ![R, n]⟩ : Shape).Idx → EReal} {x : (⟨2, ![B, n]⟩ : Shape).Idx → EReal}
    (hx : IsRows t h x' x)
    (hB : (⟨2, ![B, n]⟩ : Shape).Slices ![0, o] ⟨2, ![B, m]⟩) (hR : (⟨2, ![R, n]⟩ : Shape).Slices ![0, o] ⟨2, ![R, m]⟩)
    (hom : o + m ≤ n) :
    IsRows t h (extractStridedSlice ⟨2, ![R, m]⟩ ![0, o] x' hR) (extractStridedSlice ⟨2, ![B, m]⟩ ![0, o] x hB) := by
  intro p q
  have hk : o + q.val < n := by have := q.isLt; omega
  rw [slice2_axis1_apply o x' hR p q ⟨o + q.val, hk⟩ rfl,
    slice2_axis1_apply o x hB (row t h p) q ⟨o + q.val, hk⟩ rfl]
  exact hx p ⟨o + q.val, hk⟩

/-! ### Arrays of rows joined along their columns, read at an entry -/

section Joined

variable {α : Type}

private theorem off_axis {a m N : ℕ} (r : Fin a) (c : Fin N) (c' : Fin m)
    (b : Fin (⟨2, ![a, m]⟩ : Shape).rank) (hb : b.cast (rfl : (⟨2, ![a, m]⟩ : Shape).rank = (⟨2, ![a, N]⟩ : Shape).rank) ≠ 1) :
    ((ix2 r c' : (⟨2, ![a, m]⟩ : Shape).Idx) b).val = ((ix2 r c : (⟨2, ![a, N]⟩ : Shape).Idx) (b.cast rfl)).val := by
  match b with
  | ⟨0, _⟩ => rfl
  | ⟨1, _⟩ => exact absurd rfl hb

variable {a n₁ n₂ n₃ n₄ N : ℕ}

/-- Four arrays joined: a column in the first stretch. -/
theorem joined4_first (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₁) (e : c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₁ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    0 (by show (0 : ℕ) < 4; omega) ⟨2, ![a, n₁]⟩ x₁ rfl rfl 0 rfl (ix2 r c') (off_axis r c c')
    (by show 0 + c'.val = c.val; omega)

/-- Four arrays joined: a column in the second stretch. -/
theorem joined4_second (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₂) (e : n₁ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₂ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    1 (by show (1 : ℕ) < 4; omega) ⟨2, ![a, n₂]⟩ x₂ rfl rfl (n₁ + 0) rfl (ix2 r c') (off_axis r c c')
    (by show n₁ + 0 + c'.val = c.val; omega)

/-- Four arrays joined: a column in the third stretch. -/
theorem joined4_third (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₃) (e : n₁ + n₂ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₃ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    2 (by show (2 : ℕ) < 4; omega) ⟨2, ![a, n₃]⟩ x₃ rfl rfl (n₁ + (n₂ + 0)) rfl (ix2 r c') (off_axis r c c')
    (by show n₁ + (n₂ + 0) + c'.val = c.val; omega)

/-- Four arrays joined: a column in the fourth stretch. -/
theorem joined4_fourth (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₄) (e : n₁ + n₂ + n₃ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₄ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    3 (by show (3 : ℕ) < 4; omega) ⟨2, ![a, n₄]⟩ x₄ rfl rfl (n₁ + (n₂ + (n₃ + 0))) rfl (ix2 r c') (off_axis r c c')
    (by show n₁ + (n₂ + (n₃ + 0)) + c'.val = c.val; omega)

/-- Two arrays joined: a column in the first stretch. -/
theorem joined2_first (x₁ : (⟨2, ![a, n₁]⟩ : Shape).Idx → α) (x₂ : (⟨2, ![a, n₂]⟩ : Shape).Idx → α)
    (hc : Shape.Concatenates [⟨2, ![a, n₁]⟩, ⟨2, ![a, n₂]⟩] ⟨2, ![a, N]⟩ 1)
    (r : Fin a) (c : Fin N) (c' : Fin n₁) (e : c'.val = c.val) :
    concatenate ⟨2, ![a, N]⟩ 1 [⟨⟨2, ![a, n₁]⟩, x₁⟩, ⟨⟨2, ![a, n₂]⟩, x₂⟩] hc (ix2 r c) = x₁ (ix2 r c') :=
  concatenate_apply_piece 1 [⟨⟨2, ![a, n₁]⟩, x₁⟩, ⟨⟨2, ![a, n₂]⟩, x₂⟩] hc (ix2 r c)
    0 (by show (0 : ℕ) < 2; omega) ⟨2, ![a, n₁]⟩ x₁ rfl rfl 0 rfl (ix2 r c') (off_axis r c c')
    (by show 0 + c'.val = c.val; omega)

/-- Two arrays joined: a column in the second stretch. -/
theorem joined2_second (x₁ : (⟨2, ![a, n₁]⟩ : Shape).Idx → α) (x₂ : (⟨2, ![a, n₂]⟩ : Shape).Idx → α)
    (hc : Shape.Concatenates [⟨2, ![a, n₁]⟩, ⟨2, ![a, n₂]⟩] ⟨2, ![a, N]⟩ 1)
    (r : Fin a) (c : Fin N) (c' : Fin n₂) (e : n₁ + c'.val = c.val) :
    concatenate ⟨2, ![a, N]⟩ 1 [⟨⟨2, ![a, n₁]⟩, x₁⟩, ⟨⟨2, ![a, n₂]⟩, x₂⟩] hc (ix2 r c) = x₂ (ix2 r c') :=
  concatenate_apply_piece 1 [⟨⟨2, ![a, n₁]⟩, x₁⟩, ⟨⟨2, ![a, n₂]⟩, x₂⟩] hc (ix2 r c)
    1 (by show (1 : ℕ) < 2; omega) ⟨2, ![a, n₂]⟩ x₂ rfl rfl (n₁ + 0) rfl (ix2 r c') (off_axis r c c')
    (by show n₁ + 0 + c'.val = c.val; omega)

end Joined

/-- Four arrays joined along their columns: the R rows of the joined array are the join of the R rows of each. -/
theorem IsRows.joined4 {n₁ n₂ n₃ n₄ N : ℕ}
    {x₁' : (⟨2, ![R, n₁]⟩ : Shape).Idx → EReal} {x₁ : (⟨2, ![B, n₁]⟩ : Shape).Idx → EReal}
    {x₂' : (⟨2, ![R, n₂]⟩ : Shape).Idx → EReal} {x₂ : (⟨2, ![B, n₂]⟩ : Shape).Idx → EReal}
    {x₃' : (⟨2, ![R, n₃]⟩ : Shape).Idx → EReal} {x₃ : (⟨2, ![B, n₃]⟩ : Shape).Idx → EReal}
    {x₄' : (⟨2, ![R, n₄]⟩ : Shape).Idx → EReal} {x₄ : (⟨2, ![B, n₄]⟩ : Shape).Idx → EReal}
    (h₁ : IsRows t h x₁' x₁) (h₂ : IsRows t h x₂' x₂) (h₃ : IsRows t h x₃' x₃) (h₄ : IsRows t h x₄' x₄)
    (hN : n₁ + n₂ + n₃ + n₄ = N)
    (hR : Shape.Concatenates [⟨2, ![R, n₁]⟩, ⟨2, ![R, n₂]⟩, ⟨2, ![R, n₃]⟩, ⟨2, ![R, n₄]⟩] ⟨2, ![R, N]⟩ 1)
    (hB : Shape.Concatenates [⟨2, ![B, n₁]⟩, ⟨2, ![B, n₂]⟩, ⟨2, ![B, n₃]⟩, ⟨2, ![B, n₄]⟩] ⟨2, ![B, N]⟩ 1) :
    IsRows t h
      (concatenate ⟨2, ![R, N]⟩ 1 [⟨⟨2, ![R, n₁]⟩, x₁'⟩, ⟨⟨2, ![R, n₂]⟩, x₂'⟩, ⟨⟨2, ![R, n₃]⟩, x₃'⟩, ⟨⟨2, ![R, n₄]⟩, x₄'⟩] hR)
      (concatenate ⟨2, ![B, N]⟩ 1 [⟨⟨2, ![B, n₁]⟩, x₁⟩, ⟨⟨2, ![B, n₂]⟩, x₂⟩, ⟨⟨2, ![B, n₃]⟩, x₃⟩, ⟨⟨2, ![B, n₄]⟩, x₄⟩] hB) := by
  intro p q
  have hq := q.isLt
  by_cases c₁ : q.val < n₁
  · rw [joined4_first x₁' x₂' x₃' x₄' hR p q ⟨q.val, c₁⟩ rfl, joined4_first x₁ x₂ x₃ x₄ hB (row t h p) q ⟨q.val, c₁⟩ rfl]
    exact h₁ p _
  · by_cases c₂ : q.val < n₁ + n₂
    · have k : q.val - n₁ < n₂ := by omega
      rw [joined4_second x₁' x₂' x₃' x₄' hR p q ⟨q.val - n₁, k⟩ (by show n₁ + (q.val - n₁) = q.val; omega),
        joined4_second x₁ x₂ x₃ x₄ hB (row t h p) q ⟨q.val - n₁, k⟩ (by show n₁ + (q.val - n₁) = q.val; omega)]
      exact h₂ p _
    · by_cases c₃ : q.val < n₁ + n₂ + n₃
      · have k : q.val - (n₁ + n₂) < n₃ := by omega
        rw [joined4_third x₁' x₂' x₃' x₄' hR p q ⟨q.val - (n₁ + n₂), k⟩ (by show n₁ + n₂ + (q.val - (n₁ + n₂)) = q.val; omega),
          joined4_third x₁ x₂ x₃ x₄ hB (row t h p) q ⟨q.val - (n₁ + n₂), k⟩ (by show n₁ + n₂ + (q.val - (n₁ + n₂)) = q.val; omega)]
        exact h₃ p _
      · have k : q.val - (n₁ + n₂ + n₃) < n₄ := by omega
        rw [joined4_fourth x₁' x₂' x₃' x₄' hR p q ⟨q.val - (n₁ + n₂ + n₃), k⟩ (by show n₁ + n₂ + n₃ + (q.val - (n₁ + n₂ + n₃)) = q.val; omega),
          joined4_fourth x₁ x₂ x₃ x₄ hB (row t h p) q ⟨q.val - (n₁ + n₂ + n₃), k⟩ (by show n₁ + n₂ + n₃ + (q.val - (n₁ + n₂ + n₃)) = q.val; omega)]
        exact h₄ p _

/-- Two arrays joined along their columns: the R rows of the joined array are the join of the R rows of each. -/
theorem IsRows.joined2 {n₁ n₂ N : ℕ}
    {x₁' : (⟨2, ![R, n₁]⟩ : Shape).Idx → EReal} {x₁ : (⟨2, ![B, n₁]⟩ : Shape).Idx → EReal}
    {x₂' : (⟨2, ![R, n₂]⟩ : Shape).Idx → EReal} {x₂ : (⟨2, ![B, n₂]⟩ : Shape).Idx → EReal}
    (h₁ : IsRows t h x₁' x₁) (h₂ : IsRows t h x₂' x₂) (hN : n₁ + n₂ = N)
    (hR : Shape.Concatenates [⟨2, ![R, n₁]⟩, ⟨2, ![R, n₂]⟩] ⟨2, ![R, N]⟩ 1)
    (hB : Shape.Concatenates [⟨2, ![B, n₁]⟩, ⟨2, ![B, n₂]⟩] ⟨2, ![B, N]⟩ 1) :
    IsRows t h (concatenate ⟨2, ![R, N]⟩ 1 [⟨⟨2, ![R, n₁]⟩, x₁'⟩, ⟨⟨2, ![R, n₂]⟩, x₂'⟩] hR)
      (concatenate ⟨2, ![B, N]⟩ 1 [⟨⟨2, ![B, n₁]⟩, x₁⟩, ⟨⟨2, ![B, n₂]⟩, x₂⟩] hB) := by
  intro p q
  have hq := q.isLt
  by_cases c₁ : q.val < n₁
  · rw [joined2_first x₁' x₂' hR p q ⟨q.val, c₁⟩ rfl, joined2_first x₁ x₂ hB (row t h p) q ⟨q.val, c₁⟩ rfl]
    exact h₁ p _
  · have k : q.val - n₁ < n₂ := by omega
    rw [joined2_second x₁' x₂' hR p q ⟨q.val - n₁, k⟩ (by show n₁ + (q.val - n₁) = q.val; omega),
      joined2_second x₁ x₂ hB (row t h p) q ⟨q.val - n₁, k⟩ (by show n₁ + (q.val - n₁) = q.val; omega)]
    exact h₂ p _

/-! ## Two arrays as the two slabs of a rank-3 array -/

section Slabs

variable {α : Type} {a n : ℕ}

/-- Two [a, n] arrays as the two slabs of a [2, a, n] array. -/
def slabs (f g : (⟨2, ![a, n]⟩ : Shape).Idx → α) : (⟨3, ![2, a, n]⟩ : Shape).Idx → α :=
  fun y => if (y 0).val = 0 then f (ix2 (⟨(y 1).val, (y 1).isLt⟩ : Fin a) (⟨(y 2).val, (y 2).isLt⟩ : Fin n))
    else g (ix2 (⟨(y 1).val, (y 1).isLt⟩ : Fin a) (⟨(y 2).val, (y 2).isLt⟩ : Fin n))

theorem slabs_zero (f g : (⟨2, ![a, n]⟩ : Shape).Idx → α) (y : (⟨3, ![2, a, n]⟩ : Shape).Idx)
    (p : Fin a) (q : Fin n) (e0 : (y 0).val = 0) (e1 : (y 1).val = p.val) (e2 : (y 2).val = q.val) :
    slabs f g y = f (ix2 p q) := by
  unfold slabs
  rw [if_pos e0]
  exact congrArg f (funext fun b => match b with | ⟨0, _⟩ => Fin.ext e1 | ⟨1, _⟩ => Fin.ext e2)

theorem slabs_one (f g : (⟨2, ![a, n]⟩ : Shape).Idx → α) (y : (⟨3, ![2, a, n]⟩ : Shape).Idx)
    (p : Fin a) (q : Fin n) (e0 : (y 0).val = 1) (e1 : (y 1).val = p.val) (e2 : (y 2).val = q.val) :
    slabs f g y = g (ix2 p q) := by
  unfold slabs
  rw [if_neg (by omega)]
  exact congrArg g (funext fun b => match b with | ⟨0, _⟩ => Fin.ext e1 | ⟨1, _⟩ => Fin.ext e2)

/-- Flattening the two slabs into one [2·a, n] array is the first array with the second joined below it: row r of the
    flattened array is row r of slab 0 for r < a and row r − a of slab 1 otherwise, in either reading. -/
theorem flatten_slabs {a2 : ℕ} (ha2 : a2 = a + a) (f g : (⟨2, ![a, n]⟩ : Shape).Idx → α)
    (hc : (⟨3, ![2, a, n]⟩ : Shape).ShapeCasts ⟨2, ![a2, n]⟩)
    (hj : Shape.Concatenates [⟨2, ![a, n]⟩, ⟨2, ![a, n]⟩] ⟨2, ![a2, n]⟩ 0) :
    shapeCast ⟨2, ![a2, n]⟩ (slabs f g) hc = concatenate ⟨2, ![a2, n]⟩ 0 [⟨⟨2, ![a, n]⟩, f⟩, ⟨⟨2, ![a, n]⟩, g⟩] hj := by
  subst ha2
  funext j
  obtain ⟨r, k, rfl⟩ : ∃ (r : Fin (a + a)) (k : Fin n), j = ix2 r k := ⟨j 0, j 1, eq_ix2 j⟩
  have off1 : ∀ (r' : Fin a) (b : Fin (⟨2, ![a, n]⟩ : Shape).rank),
      b.cast (rfl : (⟨2, ![a, n]⟩ : Shape).rank = (⟨2, ![a + a, n]⟩ : Shape).rank) ≠ 0 →
      ((ix2 r' k : (⟨2, ![a, n]⟩ : Shape).Idx) b).val = ((ix2 r k : (⟨2, ![a + a, n]⟩ : Shape).Idx) (b.cast rfl)).val := by
    intro r' b hb
    match b with
    | ⟨0, _⟩ => exact absurd rfl hb
    | ⟨1, _⟩ => rfl
  by_cases hr : r.val < a
  · have e1 : shapeCast ⟨2, ![a + a, n]⟩ (slabs f g) hc (ix2 r k) = slabs f g (ix3 (0 : Fin 2) (⟨r.val, hr⟩ : Fin a) k) :=
      shapeCast_apply (slabs f g) hc _ _ (by
        rw [Shape.rowMajor_val_three, Shape.rowMajor_val_two]
        show (0 * a + r.val) * n + k.val = r.val * n + k.val
        rw [Nat.zero_mul, Nat.zero_add])
    rw [e1, slabs_zero f g _ ⟨r.val, hr⟩ k rfl rfl rfl]
    exact (concatenate_apply_piece 0 [⟨⟨2, ![a, n]⟩, f⟩, ⟨⟨2, ![a, n]⟩, g⟩] hj (ix2 r k)
      0 (by show (0 : ℕ) < 2; omega) ⟨2, ![a, n]⟩ f rfl rfl 0 rfl (ix2 ⟨r.val, hr⟩ k) (off1 _)
      (by show 0 + r.val = r.val; omega)).symm
  · have hr' : r.val - a < a := by have := r.isLt; omega
    have e1 : shapeCast ⟨2, ![a + a, n]⟩ (slabs f g) hc (ix2 r k) = slabs f g (ix3 (1 : Fin 2) (⟨r.val - a, hr'⟩ : Fin a) k) :=
      shapeCast_apply (slabs f g) hc _ _ (by
        rw [Shape.rowMajor_val_three, Shape.rowMajor_val_two]
        show (1 * a + (r.val - a)) * n + k.val = r.val * n + k.val
        have : 1 * a + (r.val - a) = r.val := by omega
        rw [this])
    rw [e1, slabs_one f g _ ⟨r.val - a, hr'⟩ k rfl rfl rfl]
    exact (concatenate_apply_piece 0 [⟨⟨2, ![a, n]⟩, f⟩, ⟨⟨2, ![a, n]⟩, g⟩] hj (ix2 r k)
      1 (by show (1 : ℕ) < 2; omega) ⟨2, ![a, n]⟩ g rfl rfl (a + 0) rfl (ix2 ⟨r.val - a, hr'⟩ k) (off1 _)
      (by show a + 0 + (r.val - a) = r.val; omega)).symm

end Slabs

end Idealize.ShloMosaic.RowBlock

end
-- ==== Proof.RegionTransform.lean ====
/-
  The two transform regions of the kernel in closed form. Each of them works through the hundred thousand rows ten
  thousand at a time: at grid point t it reads rows t·10000 … t·10000 + 9999 of the features and of the per-node
  column, and the whole weight matrix, scales each row by its node's factor, multiplies by the weight matrix into zeros
  and writes the ten thousand result rows back. Scaling a row and multiplying it by a fixed matrix involve that row
  alone, so the ten thousand rows the point writes are the same rows of (x · column) × W computed on the whole arrays
  at once; the ten blocks tile the result array, so the region leaves exactly that array.
-/
import proofs.«141765_j13494787244283_1_alg».proof.Proof.Spec
import proofs.«141765_j13494787244283_1_alg».proof.Proof.LibRowBlock
import proofs.«141765_j13494787244283_1_alg».proof.Proof.Gen.KernelIdeal.Frame
import proofs.«141765_j13494787244283_1_alg».proof.Proof.Gen.ReferenceIdeal
import Idealize.ShloMosaic.Lib.Pipeline.Value

noncomputable section

namespace Cert.KernelIdeal.RegionTransform

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.RowBlock

/-- Rows t·10000 … t·10000 + 9999 of (x · column) × W are the matrix unit's product, into zeros, of those rows of x scaled
    by those rows of the column, with W. -/
theorem pay0_isRows {t : ℕ} (h : t * 10000 + 10000 ≤ 100000)
    (x0 : FVec Ideal S10000x128 .f32) (x1 : FVec Ideal S10000x1 .f32) (x2 : FVec Ideal S128x128 .f32)
    (A0 : FVec Ideal Cert.ReferenceIdeal.S100000x128 .f32) (A1 : FVec Ideal Cert.ReferenceIdeal.S100000x1 .f32)
    (A2 : FVec Ideal Cert.ReferenceIdeal.S128x128 .f32)
    (h0 : IsRows t h x0 A0) (h1 : IsRows t h x1 A1) (h2 : ∀ (k : Fin 128) (q : Fin 128), x2 (ix2 k q) = A2 (ix2 k q)) :
    IsRows t h (k0_pay1 (F := Ideal) x0 x1 x2) (Cert.GraphConv.transform A0 A1 A2) := by
  unfold k0_pay1 Cert.GraphConv.transform
  exact IsRows.dot (IsRows.mulf h0 (IsRows.colBroadcast (IsRows.castSelf _ h1) _ _)) h2

/-- The same with the rows of x first cast to their own shape. -/
theorem pay2_isRows {t : ℕ} (h : t * 10000 + 10000 ≤ 100000)
    (x0 : FVec Ideal S10000x128 .f32) (x1 : FVec Ideal S10000x1 .f32) (x2 : FVec Ideal S128x128 .f32)
    (A0 : FVec Ideal Cert.ReferenceIdeal.S100000x128 .f32) (A1 : FVec Ideal Cert.ReferenceIdeal.S100000x1 .f32)
    (A2 : FVec Ideal Cert.ReferenceIdeal.S128x128 .f32)
    (h0 : IsRows t h x0 A0) (h1 : IsRows t h x1 A1) (h2 : ∀ (k : Fin 128) (q : Fin 128), x2 (ix2 k q) = A2 (ix2 k q)) :
    IsRows t h (k2_pay1 (F := Ideal) x0 x1 x2) (Cert.GraphConv.transform A0 A1 A2) := by
  unfold k2_pay1 Cert.GraphConv.transform
  exact IsRows.dot (IsRows.mulf (IsRows.castSelf _ h0) (IsRows.colBroadcast (IsRows.castSelf _ h1) _ _)) h2

variable (V : (c : Dev nD) → (b : Ref sig .tc) → Buf (Elt Ideal) ((c : Thread nD τ).loc b))

theorem offsets_zero : (![0, 0] : Fin 2 → Nat) = fun _ => 0 := funext fun a => by fin_cases a <;> rfl

/-! ## Region 0 -/

/-- Every grid point's ten thousand rows lie inside the hundred thousand. -/
theorem rows_le0 (t : Fin cfg0.N) : t.val * 10000 + 10000 ≤ 100000 := by
  have h : t.val < grid0.N := t.isLt
  rw [N_0] at h; omega

/-- The block indices over the grid: the row windows move with the point, the weight window stays. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point t is rows t of the feature array. -/
theorem iblk0_0_isRows (c : Dev nD) (t : Fin cfg0.N) :
    IsRows (B := 100000) (R := 10000) (n := 128) t.val (rows_le0 t) (iblk0 V c 0 t) (V c main_arg0) := by
  obtain ⟨e0, e1, -⟩ := idx_facts0 t
  intro p q
  show V c main_arg0 (((cfg0.win 0).blk t).view.emb (ix2 p q)) = V c main_arg0 (ix2 (row t.val (rows_le0 t) p) q)
  refine congrArg _ (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 128 + 1 * q.val = q.val; rw [e1]; omega

/-- The column block at point t is rows t of the column. -/
theorem iblk0_1_isRows (c : Dev nD) (t : Fin cfg0.N) :
    IsRows (B := 100000) (R := 10000) (n := 1) t.val (rows_le0 t) (iblk0 V c 1 t) (V c main_v12) := by
  obtain ⟨-, -, e0, e1, -⟩ := idx_facts0 t
  intro p q
  show V c main_v12 (((cfg0.win 1).blk t).view.emb (ix2 p q)) = V c main_v12 (ix2 (row t.val (rows_le0 t) p) q)
  refine congrArg _ (funext fun a => Fin.ext ?_)
  match a with
  | ⟨0, _⟩ => show win0_1.index t (0 : Fin 2) * 10000 + 1 * p.val = t.val * 10000 + p.val; rw [e0]; omega
  | ⟨1, _⟩ => show win0_1.index t (1 : Fin 2) * 1 + 1 * q.val = q.val; rw [e1]; omega

/-- The weight block at every point is the weight matrix. -/
theorem iblk0_2_entries (c : Dev nD) (t : Fin cfg0.N) (k q : Fin 128) :
    (iblk0 V c 2 t : FVec Ideal S128x128 .f32) (ix2 k q) = (V c main_arg3 : FVec Ideal S128x128 .f32) (ix2 k q) := by
  obtain ⟨-, -, -, -, e0, e1, -⟩ := idx_facts0 t
  show V c main_arg3 (((cfg0.win 2).blk t).view.emb (ix2 k q)) = V c main_arg3 (ix2 k q)
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The result window's block at point t, read off any array, is rows t of it. -/
theorem read_blk0_3 (t : Fin cfg0.N) (G : FVec Ideal S100000x128 .f32) :
    ((cfg0.win 3).blk t).view.read (Elt Ideal) G = rows (R := 10000) t.val (rows_le0 t) G := by
  obtain ⟨-, -, -, -, -, -, e0, e1⟩ := idx_facts0 t
  funext j
  show G (((cfg0.win 3).blk t).view.emb j) = G (ix2 (row t.val (rows_le0 t) ⟨(j 0).val, idx2_lt0 j⟩) ⟨(j 1).val, idx2_lt1 j⟩)
  refine congrArg _ (funext fun a => Fin.ext ?_)
  match a with
  | ⟨0, _⟩ => show win0_3.index t (0 : Fin 2) * 10000 + 1 * (j 0).val = t.val * 10000 + (j 0).val; rw [e0]; omega
  | ⟨1, _⟩ => show win0_3.index t (1 : Fin 2) * 128 + 1 * (j 1).val = (j 1).val; rw [e1]; omega

/-- What point t writes back is rows t of the transform of the three arrays. -/
theorem flushed0_eq (c : Dev nD) (t : Fin cfg0.N) :
    (dat0 V c).flushed 3 t = ((cfg0.win 3).blk t).view.read (Elt Ideal)
      (Cert.GraphConv.transform (V c main_arg0) (V c main_v12) (V c main_arg3)) := by
  show (cfg0.win 3).cut (grid0.coords t) ((dat0 V c).after 3 t) = _
  rw [after0_3]
  unfold out0_3
  rw [View.canon_unit_zero offsets_zero]
  simp only [View.ld_unit_zero (S := S10000x128) offsets_zero, View.ld_unit_zero (S := S10000x1) offsets_zero, View.ld_unit_zero (S := S128x128) offsets_zero]
  refine ((pay0_isRows (rows_le0 t) _ _ _ _ _ _ (iblk0_0_isRows V c t) (iblk0_1_isRows V c t)
    (iblk0_2_entries V c t)).eq_rows).trans ?_
  exact (read_blk0_3 t _).symm

/-- An index of the result array is in point t's block iff each coordinate is in the block's range on its axis. -/
theorem mem_blk0_3 (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v13).slice (win0_3.rect t)).set ↔ _
  rw [View.set_slice_whole, Rect.mem_set_unit]
  exact Iff.rfl

/-- Row r of the result array lies in the block of point r / 10000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by show (i 0).val / 10000 < grid0.N; rw [N_0]; omega⟩, rfl⟩
  obtain ⟨-, -, -, -, -, -, e0, e1⟩ := idx_facts0 t
  refine ⟨t, flush0_3 t, ?_⟩
  rw [mem_blk0_3]
  intro a
  match a with
  | ⟨0, _⟩ =>
    show win0_3.index t (0 : Fin 2) * 10000 ≤ (i 0).val ∧ (i 0).val < win0_3.index t (0 : Fin 2) * 10000 + 10000
    rw [e0, ht]; omega
  | ⟨1, _⟩ =>
    show win0_3.index t (1 : Fin 2) * 128 ≤ (i 1).val ∧ (i 1).val < win0_3.index t (1 : Fin 2) * 128 + 128
    rw [e1]; omega

/-- Region 0 leaves, in its result array, the transform of the three arrays it was entered with. -/
theorem region0 (c : Dev nD) :
    (dat0 V c).arrAt 3 cfg0.N = Cert.GraphConv.transform (V c main_arg0) (V c main_v12) (V c main_arg3) :=
  (dat0 V c).arrAt_eq_of_cover 3 _ (fun t _ => flushed0_eq V c t) cover0

/-! ## Region 2 -/

/-- Every grid point's ten thousand rows lie inside the hundred thousand. -/
theorem rows_le2 (t : Fin cfg2.N) : t.val * 10000 + 10000 ≤ 100000 := by
  have h : t.val < grid2.N := t.isLt
  rw [N_2] at h; omega

/-- The block indices over the grid: the row windows move with the point, the weight window stays. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The feature block at point t is rows t of the feature array. -/
theorem iblk2_0_isRows (c : Dev nD) (t : Fin cfg2.N) :
    IsRows (B := 100000) (R := 10000) (n := 128) t.val (rows_le2 t) (iblk2 V c 0 t) (V c main_v19) := by
  obtain ⟨e0, e1, -⟩ := idx_facts2 t
  intro p q
  show V c main_v19 (((cfg2.win 0).blk t).view.emb (ix2 p q)) = V c main_v19 (ix2 (row t.val (rows_le2 t) p) q)
  refine congrArg _ (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 128 + 1 * q.val = q.val; rw [e1]; omega

/-- The column block at point t is rows t of the column. -/
theorem iblk2_1_isRows (c : Dev nD) (t : Fin cfg2.N) :
    IsRows (B := 100000) (R := 10000) (n := 1) t.val (rows_le2 t) (iblk2 V c 1 t) (V c main_v20) := by
  obtain ⟨-, -, e0, e1, -⟩ := idx_facts2 t
  intro p q
  show V c main_v20 (((cfg2.win 1).blk t).view.emb (ix2 p q)) = V c main_v20 (ix2 (row t.val (rows_le2 t) p) q)
  refine congrArg _ (funext fun a => Fin.ext ?_)
  match a with
  | ⟨0, _⟩ => show win2_1.index t (0 : Fin 2) * 10000 + 1 * p.val = t.val * 10000 + p.val; rw [e0]; omega
  | ⟨1, _⟩ => show win2_1.index t (1 : Fin 2) * 1 + 1 * q.val = q.val; rw [e1]; omega

/-- The weight block at every point is the weight matrix. -/
theorem iblk2_2_entries (c : Dev nD) (t : Fin cfg2.N) (k q : Fin 128) :
    (iblk2 V c 2 t : FVec Ideal S128x128 .f32) (ix2 k q) = (V c main_arg5 : FVec Ideal S128x128 .f32) (ix2 k q) := by
  obtain ⟨-, -, -, -, e0, e1, -⟩ := idx_facts2 t
  show V c main_arg5 (((cfg2.win 2).blk t).view.emb (ix2 k q)) = V c main_arg5 (ix2 k q)
  refine congrArg _ (funext fun a => Fin.ext ?_)
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- The result window's block at point t, read off any array, is rows t of it. -/
theorem read_blk2_3 (t : Fin cfg2.N) (G : FVec Ideal S100000x128 .f32) :
    ((cfg2.win 3).blk t).view.read (Elt Ideal) G = rows (R := 10000) t.val (rows_le2 t) G := by
  obtain ⟨-, -, -, -, -, -, e0, e1⟩ := idx_facts2 t
  funext j
  show G (((cfg2.win 3).blk t).view.emb j) = G (ix2 (row t.val (rows_le2 t) ⟨(j 0).val, idx2_lt0 j⟩) ⟨(j 1).val, idx2_lt1 j⟩)
  refine congrArg _ (funext fun a => Fin.ext ?_)
  match a with
  | ⟨0, _⟩ => show win2_3.index t (0 : Fin 2) * 10000 + 1 * (j 0).val = t.val * 10000 + (j 0).val; rw [e0]; omega
  | ⟨1, _⟩ => show win2_3.index t (1 : Fin 2) * 128 + 1 * (j 1).val = (j 1).val; rw [e1]; omega

/-- What point t writes back is rows t of the transform of the three arrays. -/
theorem flushed2_eq (c : Dev nD) (t : Fin cfg2.N) :
    (dat2 V c).flushed 3 t = ((cfg2.win 3).blk t).view.read (Elt Ideal)
      (Cert.GraphConv.transform (V c main_v19) (V c main_v20) (V c main_arg5)) := by
  show (cfg2.win 3).cut (grid2.coords t) ((dat2 V c).after 3 t) = _
  rw [after2_3]
  unfold out2_3
  rw [View.canon_unit_zero offsets_zero]
  simp only [View.ld_unit_zero (S := S10000x128) offsets_zero, View.ld_unit_zero (S := S10000x1) offsets_zero, View.ld_unit_zero (S := S128x128) offsets_zero]
  refine ((pay2_isRows (rows_le2 t) _ _ _ _ _ _ (iblk2_0_isRows V c t) (iblk2_1_isRows V c t)
    (iblk2_2_entries V c t)).eq_rows).trans ?_
  exact (read_blk2_3 t _).symm

/-- An index of the result array is in point t's block iff each coordinate is in the block's range on its axis. -/
theorem mem_blk2_3 (t : Fin cfg2.N) (i : S100000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v21).slice (win2_3.rect t)).set ↔ _
  rw [View.set_slice_whole, Rect.mem_set_unit]
  exact Iff.rfl

/-- Row r of the result array lies in the block of point r / 10000. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ : ∃ t : Fin cfg2.N, t.val = (i 0).val / 10000 :=
    ⟨⟨(i 0).val / 10000, by show (i 0).val / 10000 < grid2.N; rw [N_2]; omega⟩, rfl⟩
  obtain ⟨-, -, -, -, -, -, e0, e1⟩ := idx_facts2 t
  refine ⟨t, flush2_3 t, ?_⟩
  rw [mem_blk2_3]
  intro a
  match a with
  | ⟨0, _⟩ =>
    show win2_3.index t (0 : Fin 2) * 10000 ≤ (i 0).val ∧ (i 0).val < win2_3.index t (0 : Fin 2) * 10000 + 10000
    rw [e0, ht]; omega
  | ⟨1, _⟩ =>
    show win2_3.index t (1 : Fin 2) * 128 ≤ (i 1).val ∧ (i 1).val < win2_3.index t (1 : Fin 2) * 128 + 128
    rw [e1]; omega

/-- Region 2 leaves, in its result array, the transform of the three arrays it was entered with. -/
theorem region2 (c : Dev nD) :
    (dat2 V c).arrAt 3 cfg2.N = Cert.GraphConv.transform (V c main_v19) (V c main_v20) (V c main_arg5) :=
  (dat2 V c).arrAt_eq_of_cover 3 _ (fun t _ => flushed2_eq V c t) cover2

end Cert.KernelIdeal.RegionTransform

end
-- ==== Proof.RegionPost.lean ====
/-
  The two regions that finish a layer, in closed form. Each works through the node array ten thousand rows at a time:
  from rows 10000·t … 10000·t + 9999 of the aggregated features a and of the per-node factor column, and the whole
  bias vector b, point t computes max(a · factor + b, 0) on those rows and writes them back as rows
  10000·t … 10000·t + 9999 of the result. Every operation involved acts on each row by itself, so the ten thousand
  rows computed at point t are the same rows of max(a · factor + b, 0) computed on all hundred thousand rows at once;
  the ten blocks tile the array (row r lies in block r / 10000), so the result array is that whole-array function of
  the three arrays the region finds.
-/
import proofs.«141765_j13494787244283_1_alg».proof.Proof.Spec
import proofs.«141765_j13494787244283_1_alg».proof.Proof.LibRowBlock
import proofs.«141765_j13494787244283_1_alg».proof.Proof.Gen.KernelIdeal.Frame
import proofs.«141765_j13494787244283_1_alg».proof.Proof.Gen.ReferenceIdeal
import Idealize.ShloMosaic.Lib.Pipeline.Value

noncomputable section

namespace Cert.KernelIdeal.RegionPost

open Idealize.ShloMosaic Idealize.ShloMosaic.TcCoe Idealize.SL.Sem
open Idealize.ShloMosaic.Pipeline (Dat)
open Idealize.ShloMosaic.RowBlock Idealize.ShloMosaic.ValueIdx
open Cert.KernelIdeal Cert.KernelIdeal.Gen

theorem hz2 : (![0, 0] : Fin 2 → Nat) = fun _ => 0 := funext fun a => by fin_cases a <;> rfl

theorem hz1 : (![0] : Fin 1 → Nat) = fun _ => 0 := funext fun a => by fin_cases a <;> rfl

/-! ## Region 1: rows scaled by a per-row factor, a bias row added, negatives cut to zero -/

/-- Ten thousand rows of the scaled, shifted and clipped array are that function of the ten thousand rows. -/
theorem post1_rows {t : ℕ} (h : t * 10000 + 10000 ≤ 100000)
    (x0 : FVec Ideal S10000x128 .f32) (x1 : FVec Ideal S10000x1 .f32) (x2 : FVec Ideal S128 .f32)
    (A0 : FVec Ideal Cert.ReferenceIdeal.S100000x128 .f32) (A1 : FVec Ideal Cert.ReferenceIdeal.S100000x1 .f32)
    (A2 : FVec Ideal Cert.ReferenceIdeal.S128 .f32)
    (h0 : IsRows t h x0 A0) (h1 : IsRows t h x1 A1) (h2 : x2 = A2) :
    IsRows t h (k1_pay1 (F := Ideal) x0 x1 x2) (Cert.GraphConv.post A0 A1 A2) := by
  subst h2
  unfold k1_pay1 Cert.GraphConv.post
  exact IsRows.maximumf
    (IsRows.addf (IsRows.mulf (IsRows.castSelf _ h0) (IsRows.colBroadcast (IsRows.castSelf _ h1) _ _))
      (IsRows.bias _ _ _ _ _))
    (IsRows.const _ _)

/-- The block index of every window at every grid point: windows 0, 1 and 3 move down the rows with the point, the
    bias window stays. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Block t of window 0, read off an array, is rows 10000·t … 10000·t + 9999 of the array. -/
theorem rows1_0 (t : Fin cfg1.N) (h : t.val * 10000 + 10000 ≤ 100000) (G : FVec Ideal S100000x128 .f32) :
    IsRows t.val h (((cfg1.win 0).blk t).view.read (Elt Ideal) G : FVec Ideal S10000x128 .f32) G := by
  intro p q
  obtain ⟨e0, e1, -⟩ := idx1 t
  rw [View.read_apply]
  show G (((cfg1.win 0).blk t).view.emb (ix2 p q)) = G (ix2 (row t.val h p) q)
  refine congrArg G (funext fun a => Fin.ext ?_)
  match a with
  | ⟨0, _⟩ =>
    show win1_0.index t (0 : Fin 2) * 10000 + 1 * p.val = t.val * 10000 + p.val
    rw [e0]; omega
  | ⟨1, _⟩ =>
    show win1_0.index t (1 : Fin 2) * 128 + 1 * q.val = q.val
    rw [e1]; omega

/-- Block t of window 1, read off a column, is rows 10000·t … 10000·t + 9999 of the column. -/
theorem rows1_1 (t : Fin cfg1.N) (h : t.val * 10000 + 10000 ≤ 100000) (G : FVec Ideal S100000x1 .f32) :
    IsRows t.val h (((cfg1.win 1).blk t).view.read (Elt Ideal) G : FVec Ideal S10000x1 .f32) G := by
  intro p q
  obtain ⟨-, -, e0, e1, -⟩ := idx1 t
  rw [View.read_apply]
  show G (((cfg1.win 1).blk t).view.emb (ix2 p q)) = G (ix2 (row t.val h p) q)
  refine congrArg G (funext fun a => Fin.ext ?_)
  match a with
  | ⟨0, _⟩ =>
    show win1_1.index t (0 : Fin 2) * 10000 + 1 * p.val = t.val * 10000 + p.val
    rw [e0]; omega
  | ⟨1, _⟩ =>
    show win1_1.index t (1 : Fin 2) * 1 + 1 * q.val = q.val
    rw [e1]; omega

/-- The one block of the bias window, read off a vector, is the vector. -/
theorem whole1_2 (t : Fin cfg1.N) (G : FVec Ideal S128 .f32) :
    (((cfg1.win 2).blk t).view.read (Elt Ideal) G : FVec Ideal S128 .f32) = G := by
  funext j
  obtain ⟨q, rfl⟩ : ∃ q : Fin 128, j = ix1 q := ⟨j 0, eq_ix1 j⟩
  obtain ⟨-, -, -, -, e0, -⟩ := idx1 t
  rw [View.read_apply]
  show G (((cfg1.win 2).blk t).view.emb (ix1 q)) = G (ix1 q)
  refine congrArg G (funext fun a => Fin.ext ?_)
  match a with
  | ⟨0, _⟩ =>
    show win1_2.index t (0 : Fin 1) * 128 + 1 * q.val = q.val
    rw [e0]; omega

/-- Block t of the output window, read off an array, is rows 10000·t … 10000·t + 9999 of the array. -/
theorem rows1_3 (t : Fin cfg1.N) (h : t.val * 10000 + 10000 ≤ 100000) (G : FVec Ideal S100000x128 .f32) :
    IsRows t.val h (((cfg1.win 3).blk t).view.read (Elt Ideal) G : FVec Ideal S10000x128 .f32) G := by
  intro p q
  obtain ⟨-, -, -, -, -, e0, e1⟩ := idx1 t
  rw [View.read_apply]
  show G (((cfg1.win 3).blk t).view.emb (ix2 p q)) = G (ix2 (row t.val h p) q)
  refine congrArg G (funext fun a => Fin.ext ?_)
  match a with
  | ⟨0, _⟩ =>
    show win1_3.index t (0 : Fin 2) * 10000 + 1 * p.val = t.val * 10000 + p.val
    rw [e0]; omega
  | ⟨1, _⟩ =>
    show win1_3.index t (1 : Fin 2) * 128 + 1 * q.val = q.val
    rw [e1]; omega

section
variable (V : (c : Dev nD) → (b : Ref sig .tc) → Buf (Elt Ideal) ((c : Thread nD τ).loc b))

/-- The three input blocks at a point, as rows of the arrays the region finds. -/
theorem blk1_0 (c : Dev nD) (t : Fin cfg1.N) (h : t.val * 10000 + 10000 ≤ 100000) :
    IsRows t.val h (iblk1 V c 0 t : FVec Ideal S10000x128 .f32) (V c main_v17 : FVec Ideal S100000x128 .f32) :=
  rows1_0 t h (V c main_v17)

theorem blk1_1 (c : Dev nD) (t : Fin cfg1.N) (h : t.val * 10000 + 10000 ≤ 100000) :
    IsRows t.val h (iblk1 V c 1 t : FVec Ideal S10000x1 .f32) (V c main_v18 : FVec Ideal S100000x1 .f32) :=
  rows1_1 t h (V c main_v18)

theorem blk1_2 (c : Dev nD) (t : Fin cfg1.N) :
    (iblk1 V c 2 t : FVec Ideal S128 .f32) = (V c main_arg4 : FVec Ideal S128 .f32) :=
  whole1_2 t (V c main_arg4)

/-- What point t writes back is block t of the closed form. -/
theorem flushed1 (c : Dev nD) (t : Fin cfg1.N) :
    (dat1 V c).flushed 3 t = ((cfg1.win 3).blk t).view.read (Elt Ideal)
      (Cert.GraphConv.post (V c main_v17) (V c main_v18) (V c main_arg4)) := by
  have ht : t.val * 10000 + 10000 ≤ 100000 := by
    have hlt : t.val < 10 := lt_of_lt_of_eq t.isLt (show cfg1.N = 10 from N_1)
    omega
  show (cfg1.win 3).cut (grid1.coords t) ((dat1 V c).after 3 t) = _
  rw [after1_3]
  unfold out1_3
  rw [View.canon_unit_zero hz2]
  simp only [View.ld_unit_zero (S := S10000x128) hz2, View.ld_unit_zero (S := S10000x1) hz2,
    View.ld_unit_zero (S := S128) hz1]
  have key := post1_rows ht (iblk1 V c 0 t) (iblk1 V c 1 t) (iblk1 V c 2 t) (V c main_v17) (V c main_v18) (V c main_arg4)
    (blk1_0 V c t ht) (blk1_1 V c t ht) (blk1_2 V c t)
  funext j
  obtain ⟨p, q, rfl⟩ : ∃ (p : Fin 10000) (q : Fin 128), j = ix2 p q := ⟨j 0, j 1, eq_ix2 j⟩
  exact (key p q).trans (rows1_3 t ht _ p q).symm

end

/-- An index of the array is in point t's block iff each coordinate is in the block's range on its axis. -/
theorem mem_blk1 (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v19).slice (win1_3.rect t)).set ↔ _
  rw [View.set_slice_whole, Rect.mem_set_unit]
  exact Iff.rfl

/-- Row r lies in the block of point r / 10000. -/
theorem cover1 (i : S100000x128.Idx) :
    ∃ t : Fin cfg1.N, (cfg1.win 3).flush t = true ∧ i ∈ ((cfg1.win 3).blk t).view.set := by
  have hN : cfg1.N = 10 := N_1
  have hi0 : (i 0).val < 100000 := (i 0).isLt
  have hi1 : (i 1).val < 128 := (i 1).isLt
  obtain ⟨t, ht⟩ : ∃ t : Fin cfg1.N, t.val = (i 0).val / 10000 := ⟨⟨(i 0).val / 10000, by rw [hN]; omega⟩, rfl⟩
  refine ⟨t, flush1_3 t, ?_⟩
  rw [mem_blk1]
  obtain ⟨-, -, -, -, -, e0, e1⟩ := idx1 t
  intro a
  match a with
  | ⟨0, _⟩ =>
    show win1_3.index t (0 : Fin 2) * 10000 ≤ (i 0).val ∧ (i 0).val < win1_3.index t (0 : Fin 2) * 10000 + 10000
    rw [e0]; omega
  | ⟨1, _⟩ =>
    show win1_3.index t (1 : Fin 2) * 128 ≤ (i 1).val ∧ (i 1).val < win1_3.index t (1 : Fin 2) * 128 + 128
    rw [e1]; omega

/-- The region's result array: the closed form of the arrays the region finds. -/
theorem region1 (V : (c : Dev nD) → (b : Ref sig .tc) → Buf (Elt Ideal) ((c : Thread nD τ).loc b)) (c : Dev nD) :
    (dat1 V c).arrAt 3 cfg1.N = Cert.GraphConv.post (V c main_v17) (V c main_v18) (V c main_arg4) :=
  (dat1 V c).arrAt_eq_of_cover 3 _ (fun t _ => flushed1 V c t) cover1

/-! ## Region 3: rows scaled by a per-row factor, a bias row added, negatives cut to zero -/

/-- Ten thousand rows of the scaled, shifted and clipped array are that function of the ten thousand rows. -/
theorem post3_rows {t : ℕ} (h : t * 10000 + 10000 ≤ 100000)
    (x0 : FVec Ideal S10000x128 .f32) (x1 : FVec Ideal S10000x1 .f32) (x2 : FVec Ideal S128 .f32)
    (A0 : FVec Ideal Cert.ReferenceIdeal.S100000x128 .f32) (A1 : FVec Ideal Cert.ReferenceIdeal.S100000x1 .f32)
    (A2 : FVec Ideal Cert.ReferenceIdeal.S128 .f32)
    (h0 : IsRows t h x0 A0) (h1 : IsRows t h x1 A1) (h2 : x2 = A2) :
    IsRows t h (k3_pay1 (F := Ideal) x0 x1 x2) (Cert.GraphConv.post A0 A1 A2) := by
  subst h2
  unfold k3_pay1 Cert.GraphConv.post
  exact IsRows.maximumf
    (IsRows.addf (IsRows.mulf (IsRows.castSelf _ h0) (IsRows.colBroadcast (IsRows.castSelf _ h1) _ _))
      (IsRows.bias _ _ _ _ _))
    (IsRows.const _ _)

/-- The block index of every window at every grid point: windows 0, 1 and 3 move down the rows with the point, the
    bias window stays. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Block t of window 0, read off an array, is rows 10000·t … 10000·t + 9999 of the array. -/
theorem rows3_0 (t : Fin cfg3.N) (h : t.val * 10000 + 10000 ≤ 100000) (G : FVec Ideal S100000x128 .f32) :
    IsRows t.val h (((cfg3.win 0).blk t).view.read (Elt Ideal) G : FVec Ideal S10000x128 .f32) G := by
  intro p q
  obtain ⟨e0, e1, -⟩ := idx3 t
  rw [View.read_apply]
  show G (((cfg3.win 0).blk t).view.emb (ix2 p q)) = G (ix2 (row t.val h p) q)
  refine congrArg G (funext fun a => Fin.ext ?_)
  match a with
  | ⟨0, _⟩ =>
    show win3_0.index t (0 : Fin 2) * 10000 + 1 * p.val = t.val * 10000 + p.val
    rw [e0]; omega
  | ⟨1, _⟩ =>
    show win3_0.index t (1 : Fin 2) * 128 + 1 * q.val = q.val
    rw [e1]; omega

/-- Block t of window 1, read off a column, is rows 10000·t … 10000·t + 9999 of the column. -/
theorem rows3_1 (t : Fin cfg3.N) (h : t.val * 10000 + 10000 ≤ 100000) (G : FVec Ideal S100000x1 .f32) :
    IsRows t.val h (((cfg3.win 1).blk t).view.read (Elt Ideal) G : FVec Ideal S10000x1 .f32) G := by
  intro p q
  obtain ⟨-, -, e0, e1, -⟩ := idx3 t
  rw [View.read_apply]
  show G (((cfg3.win 1).blk t).view.emb (ix2 p q)) = G (ix2 (row t.val h p) q)
  refine congrArg G (funext fun a => Fin.ext ?_)
  match a with
  | ⟨0, _⟩ =>
    show win3_1.index t (0 : Fin 2) * 10000 + 1 * p.val = t.val * 10000 + p.val
    rw [e0]; omega
  | ⟨1, _⟩ =>
    show win3_1.index t (1 : Fin 2) * 1 + 1 * q.val = q.val
    rw [e1]; omega

/-- The one block of the bias window, read off a vector, is the vector. -/
theorem whole3_2 (t : Fin cfg3.N) (G : FVec Ideal S128 .f32) :
    (((cfg3.win 2).blk t).view.read (Elt Ideal) G : FVec Ideal S128 .f32) = G := by
  funext j
  obtain ⟨q, rfl⟩ : ∃ q : Fin 128, j = ix1 q := ⟨j 0, eq_ix1 j⟩
  obtain ⟨-, -, -, -, e0, -⟩ := idx3 t
  rw [View.read_apply]
  show G (((cfg3.win 2).blk t).view.emb (ix1 q)) = G (ix1 q)
  refine congrArg G (funext fun a => Fin.ext ?_)
  match a with
  | ⟨0, _⟩ =>
    show win3_2.index t (0 : Fin 1) * 128 + 1 * q.val = q.val
    rw [e0]; omega

/-- Block t of the output window, read off an array, is rows 10000·t … 10000·t + 9999 of the array. -/
theorem rows3_3 (t : Fin cfg3.N) (h : t.val * 10000 + 10000 ≤ 100000) (G : FVec Ideal S100000x128 .f32) :
    IsRows t.val h (((cfg3.win 3).blk t).view.read (Elt Ideal) G : FVec Ideal S10000x128 .f32) G := by
  intro p q
  obtain ⟨-, -, -, -, -, e0, e1⟩ := idx3 t
  rw [View.read_apply]
  show G (((cfg3.win 3).blk t).view.emb (ix2 p q)) = G (ix2 (row t.val h p) q)
  refine congrArg G (funext fun a => Fin.ext ?_)
  match a with
  | ⟨0, _⟩ =>
    show win3_3.index t (0 : Fin 2) * 10000 + 1 * p.val = t.val * 10000 + p.val
    rw [e0]; omega
  | ⟨1, _⟩ =>
    show win3_3.index t (1 : Fin 2) * 128 + 1 * q.val = q.val
    rw [e1]; omega

section
variable (V : (c : Dev nD) → (b : Ref sig .tc) → Buf (Elt Ideal) ((c : Thread nD τ).loc b))

/-- The three input blocks at a point, as rows of the arrays the region finds. -/
theorem blk3_0 (c : Dev nD) (t : Fin cfg3.N) (h : t.val * 10000 + 10000 ≤ 100000) :
    IsRows t.val h (iblk3 V c 0 t : FVec Ideal S10000x128 .f32) (V c main_v25 : FVec Ideal S100000x128 .f32) :=
  rows3_0 t h (V c main_v25)

theorem blk3_1 (c : Dev nD) (t : Fin cfg3.N) (h : t.val * 10000 + 10000 ≤ 100000) :
    IsRows t.val h (iblk3 V c 1 t : FVec Ideal S10000x1 .f32) (V c main_v26 : FVec Ideal S100000x1 .f32) :=
  rows3_1 t h (V c main_v26)

theorem blk3_2 (c : Dev nD) (t : Fin cfg3.N) :
    (iblk3 V c 2 t : FVec Ideal S128 .f32) = (V c main_arg6 : FVec Ideal S128 .f32) :=
  whole3_2 t (V c main_arg6)

/-- What point t writes back is block t of the closed form. -/
theorem flushed3 (c : Dev nD) (t : Fin cfg3.N) :
    (dat3 V c).flushed 3 t = ((cfg3.win 3).blk t).view.read (Elt Ideal)
      (Cert.GraphConv.post (V c main_v25) (V c main_v26) (V c main_arg6)) := by
  have ht : t.val * 10000 + 10000 ≤ 100000 := by
    have hlt : t.val < 10 := lt_of_lt_of_eq t.isLt (show cfg3.N = 10 from N_3)
    omega
  show (cfg3.win 3).cut (grid3.coords t) ((dat3 V c).after 3 t) = _
  rw [after3_3]
  unfold out3_3
  rw [View.canon_unit_zero hz2]
  simp only [View.ld_unit_zero (S := S10000x128) hz2, View.ld_unit_zero (S := S10000x1) hz2,
    View.ld_unit_zero (S := S128) hz1]
  have key := post3_rows ht (iblk3 V c 0 t) (iblk3 V c 1 t) (iblk3 V c 2 t) (V c main_v25) (V c main_v26) (V c main_arg6)
    (blk3_0 V c t ht) (blk3_1 V c t ht) (blk3_2 V c t)
  funext j
  obtain ⟨p, q, rfl⟩ : ∃ (p : Fin 10000) (q : Fin 128), j = ix2 p q := ⟨j 0, j 1, eq_ix2 j⟩
  exact (key p q).trans (rows3_3 t ht _ p q).symm

end

/-- An index of the array is in point t's block iff each coordinate is in the block's range on its axis. -/
theorem mem_blk3 (t : Fin cfg3.N) (i : S100000x128.Idx) :
    i ∈ ((cfg3.win 3).blk t).view.set ↔ ∀ a : Fin 2, win3_3.index t a * S10000x128.size a ≤ (i a).val
      ∧ (i a).val < win3_3.index t a * S10000x128.size a + S10000x128.size a := by
  show i ∈ ((View.whole main_v27).slice (win3_3.rect t)).set ↔ _
  rw [View.set_slice_whole, Rect.mem_set_unit]
  exact Iff.rfl

/-- Row r lies in the block of point r / 10000. -/
theorem cover3 (i : S100000x128.Idx) :
    ∃ t : Fin cfg3.N, (cfg3.win 3).flush t = true ∧ i ∈ ((cfg3.win 3).blk t).view.set := by
  have hN : cfg3.N = 10 := N_3
  have hi0 : (i 0).val < 100000 := (i 0).isLt
  have hi1 : (i 1).val < 128 := (i 1).isLt
  obtain ⟨t, ht⟩ : ∃ t : Fin cfg3.N, t.val = (i 0).val / 10000 := ⟨⟨(i 0).val / 10000, by rw [hN]; omega⟩, rfl⟩
  refine ⟨t, flush3_3 t, ?_⟩
  rw [mem_blk3]
  obtain ⟨-, -, -, -, -, e0, e1⟩ := idx3 t
  intro a
  match a with
  | ⟨0, _⟩ =>
    show win3_3.index t (0 : Fin 2) * 10000 ≤ (i 0).val ∧ (i 0).val < win3_3.index t (0 : Fin 2) * 10000 + 10000
    rw [e0]; omega
  | ⟨1, _⟩ =>
    show win3_3.index t (1 : Fin 2) * 128 ≤ (i 1).val ∧ (i 1).val < win3_3.index t (1 : Fin 2) * 128 + 128
    rw [e1]; omega

/-- The region's result array: the closed form of the arrays the region finds. -/
theorem region3 (V : (c : Dev nD) → (b : Ref sig .tc) → Buf (Elt Ideal) ((c : Thread nD τ).loc b)) (c : Dev nD) :
    (dat3 V c).arrAt 3 cfg3.N = Cert.GraphConv.post (V c main_v25) (V c main_v26) (V c main_arg6) :=
  (dat3 V c).arrAt_eq_of_cover 3 _ (fun t _ => flushed3 V c t) cover3

end Cert.KernelIdeal.RegionPost

end
-- ==== Proof.LibHostLine.lean ====
/-
  Two facts about a straight line of host operations run over a memory, for a program whose entry function calls a
  function of its own or joins arrays.

  Running one line after another is running their concatenation (after_append): so a long line can be cut where a
  later operation's operands sit inside a structure a rewriting pass does not enter — the operand list of a join —, the
  first part evaluated once, and the rest run over the memory the first part leaves, named and never opened.

  The operations of a called function are stated over references that carry the type of the value they hold; such a
  reference moves contents between "contents of its buffer" and "contents at the value's type" along the equation of the
  two types. There and back is the identity (ofBuf_toBuf, toBuf_ofBuf): what one operation of the function writes and
  the next one reads is the value itself.
-/
import Idealize.ShloMosaic.Lib.StableHlo.Run

namespace Cert.Lib.HostLine

open Idealize.ShloMosaic Idealize.ShloMosaic.StableHlo

variable {τ : Topo} {sig : RefSig} {Val : EltTy → Type}

/-- Running one line after another is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents at the value's type, moved to the buffer's type and back, are the contents. -/
theorem ofBuf_toBuf {T : BufTy} (x : TRef sig T) (v : T.Contents Val) : x.ofBuf (x.toBuf v) = v := by
  obtain ⟨r, h, h1, h2⟩ := x
  subst h
  rfl

/-- Contents of the buffer, moved to the value's type and back, are the contents. -/
theorem toBuf_ofBuf {T : BufTy} (x : TRef sig T) (v : x.ref.ty.Contents Val) : x.toBuf (x.ofBuf v) = v := by
  obtain ⟨r, h, h1, h2⟩ := x
  subst h
  rfl

end Cert.Lib.HostLine
-- ==== Proof.KernelChain.lean ====
/-
  The idealized kernel's result as one function of its arguments.

  The program alternates stretches of whole-array operations with four row-tiled regions. Its final buffer contents
  are a fold of those fourteen segments over the launch memory. Read at the result buffer, the fold is:
      the last region's closed form  (max(a · in-norm + b2, 0))
      of the aggregation  (gather by src, scatter-add by dst)  of the third region's closed form  ((h · out-norm) × W2)
      of the second region's closed form  (max(a · in-norm + b1, 0))
      of the aggregation of the first region's closed form  ((x · out-norm) × W1),
  with out-norm and in-norm the degree norms of src and dst computed before the first region. Seven buffers outlive the
  regions that follow their computation (src, dst, b1, W2, b2 and the two degree norms): no later stretch and no later
  region writes them, so each boundary finds in them what the previous one left. The gather, the scatter-add and the
  degree count are the reference's own operations, carried closed.
-/
import proofs.«141765_j13494787244283_1_alg».proof.Proof.Spec
import proofs.«141765_j13494787244283_1_alg».proof.Proof.RegionTransform
import proofs.«141765_j13494787244283_1_alg».proof.Proof.RegionPost
import proofs.«141765_j13494787244283_1_alg».proof.Proof.LibHostLine
import proofs.«141765_j13494787244283_1_alg».proof.Proof.Gen.KernelIdeal.Frame
import proofs.«141765_j13494787244283_1_alg».proof.Proof.Gen.ReferenceIdeal
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.StableHlo Idealize.SL.Sem
open Idealize.ShloMosaic.Pipeline (Dat)

/-! ## The shared pieces in this program's own shape and record constants

The two programs name the same shapes and dimension records by different constants of equal value; each piece below is
the specification's piece with this program's constants, and equal to it by unfolding the constants. -/

def kDegNorm (idx : IVec S1600000 32) : FVec Ideal S100000 .f32 :=
  Host.rsqrt (F := Ideal)
    (maximumf (F := Ideal)
      (broadcastInDim S100000 ![] bcast_S_S100000 (id (constant (F := Ideal) S_ .f32 0x3F800000#32)))
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32))))

def kCol (n : FVec Ideal S100000 .f32) : FVec Ideal S100000x1 .f32 :=
  broadcastInDim S100000x1 ![0] bcast_S100000_S100000x1_0 n

def kTakeIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

def kTakeOk (src : IVec S1600000 32) : IVec S1600000 1 :=
  Host.reduce IntOp.andi
    (andi (cmpi .sge (kTakeIdx src) (broadcastInDim S1600000x1 ![] bcast_S_S1600000x1 (constantI S_ 32 0#32)))
      (cmpi .sle (kTakeIdx src)
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

def kTake (h : FVec Ideal S100000x128 .f32) (src : IVec S1600000 32) : FVec Ideal S1600000x128 .f32 :=
  select (broadcastInDim S1600000x128 ![0] bcast_S1600000_S1600000x128_0 (kTakeOk src))
    (Host.gather gather_S100000x128_S1600000x1_S1600000x128_1_0_n_n_0_1_1128 h (kTakeIdx src))
    (broadcastInDim S1600000x128 ![] bcast_S_S1600000x128 (constant (F := Ideal) S_ .f32 0x7FC00000#32))

def kAgg (h : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (kTake h src)

theorem kDegNorm_eq (idx : IVec S1600000 32) : kDegNorm idx = Cert.GraphConv.degNorm idx := rfl
theorem kCol_eq (n : FVec Ideal S100000 .f32) : kCol n = Cert.GraphConv.col n := rfl
theorem kAgg_eq (h : FVec Ideal S100000x128 .f32) (src dst : IVec S1600000 32) :
    kAgg h src dst = Cert.GraphConv.agg h src dst := rfl

/-! ## What each stretch of whole-array operations leaves, from any contents `W` it starts from -/

/-- At a literal buffer whose type is the value's type, moving contents to or from the buffer's type changes nothing. -/
theorem ofBuf_cst1 (h1 h2 h3) (v : (⟨S_, .f32⟩ : BufTy).Contents (Elt Ideal)) :
    (TRef.of (sig := sig) (T := ⟨S_, .f32⟩) main_cst_1 h1 h2 h3).ofBuf v = v := rfl
theorem ofBuf_v3 (h1 h2 h3) (v : (⟨S100000, .f32⟩ : BufTy).Contents (Elt Ideal)) :
    (TRef.of (sig := sig) (T := ⟨S100000, .f32⟩) main_v3 h1 h2 h3).ofBuf v = v := rfl
theorem toBuf_v4 (h1 h2 h3) (v : (⟨S100000, .f32⟩ : BufTy).Contents (Elt Ideal)) :
    (TRef.of (sig := sig) (T := ⟨S100000, .f32⟩) main_v4 h1 h2 h3).toBuf v = v := rfl
theorem ofBuf_cst4 (h1 h2 h3) (v : (⟨S_, .f32⟩ : BufTy).Contents (Elt Ideal)) :
    (TRef.of (sig := sig) (T := ⟨S_, .f32⟩) main_cst_4 h1 h2 h3).ofBuf v = v := rfl
theorem ofBuf_v9 (h1 h2 h3) (v : (⟨S100000, .f32⟩ : BufTy).Contents (Elt Ideal)) :
    (TRef.of (sig := sig) (T := ⟨S100000, .f32⟩) main_v9 h1 h2 h3).ofBuf v = v := rfl
theorem toBuf_v10 (h1 h2 h3) (v : (⟨S100000, .f32⟩ : BufTy).Contents (Elt Ideal)) :
    (TRef.of (sig := sig) (T := ⟨S100000, .f32⟩) main_v10 h1 h2 h3).toBuf v = v := rfl

section Stretches

variable (W : Valuation τ sig (Elt Ideal))

/-- The operations before the first region, from the launch contents. -/
abbrev pre : Valuation τ sig (Elt Ideal) :=
  after hostOps0_4 (after hostOps0_3 (after hostOps0_2 (after hostOps0_1 (after hostOps0 W))))

attribute [local irreducible] Host.reduce Host.gather Host.scatterAdd Host.rsqrt in
theorem pre_v5 : pre W (Proc.devRef .tc main_v5) = kDegNorm (W (Proc.devRef .tc main_arg1)) := by
  after_results_simp
  simp only [Cert.Lib.HostLine.ofBuf_toBuf, ofBuf_cst1, ofBuf_v3, toBuf_v4]
  rfl

attribute [local irreducible] Host.reduce Host.gather Host.scatterAdd Host.rsqrt in
theorem pre_v11 : pre W (Proc.devRef .tc main_v11) = kDegNorm (W (Proc.devRef .tc main_arg2)) := by
  after_results_simp
  simp only [Cert.Lib.HostLine.ofBuf_toBuf, ofBuf_cst4, ofBuf_v9, toBuf_v10]
  rfl

attribute [local irreducible] Host.reduce Host.gather Host.scatterAdd Host.rsqrt in
theorem pre_v12 : pre W (Proc.devRef .tc main_v12) = kCol (kDegNorm (W (Proc.devRef .tc main_arg1))) := by
  after_results_simp
  simp only [Cert.Lib.HostLine.ofBuf_toBuf, ofBuf_cst1, ofBuf_v3, toBuf_v4]
  rfl

theorem pre_arg0 : pre W (Proc.devRef .tc main_arg0) = W (Proc.devRef .tc main_arg0) := by after_results_simp
theorem pre_arg1 : pre W (Proc.devRef .tc main_arg1) = W (Proc.devRef .tc main_arg1) := by after_results_simp
theorem pre_arg2 : pre W (Proc.devRef .tc main_arg2) = W (Proc.devRef .tc main_arg2) := by after_results_simp
theorem pre_arg3 : pre W (Proc.devRef .tc main_arg3) = W (Proc.devRef .tc main_arg3) := by after_results_simp
theorem pre_arg4 : pre W (Proc.devRef .tc main_arg4) = W (Proc.devRef .tc main_arg4) := by after_results_simp
theorem pre_arg5 : pre W (Proc.devRef .tc main_arg5) = W (Proc.devRef .tc main_arg5) := by after_results_simp
theorem pre_arg6 : pre W (Proc.devRef .tc main_arg6) = W (Proc.devRef .tc main_arg6) := by after_results_simp

/-- The seven buffers that outlive the regions hold in `W'` what they hold in `W`. -/
structure Same (W W' : Valuation τ sig (Elt Ideal)) : Prop where
  src : W' (Proc.devRef .tc main_arg1) = W (Proc.devRef .tc main_arg1)
  dst : W' (Proc.devRef .tc main_arg2) = W (Proc.devRef .tc main_arg2)
  b1 : W' (Proc.devRef .tc main_arg4) = W (Proc.devRef .tc main_arg4)
  w2 : W' (Proc.devRef .tc main_arg5) = W (Proc.devRef .tc main_arg5)
  b2 : W' (Proc.devRef .tc main_arg6) = W (Proc.devRef .tc main_arg6)
  nout : W' (Proc.devRef .tc main_v5) = W (Proc.devRef .tc main_v5)
  nin : W' (Proc.devRef .tc main_v11) = W (Proc.devRef .tc main_v11)

theorem Same.trans {W₁ W₂ W₃ : Valuation τ sig (Elt Ideal)} (h : Same W₁ W₂) (h' : Same W₂ W₃) : Same W₁ W₃ :=
  ⟨h'.src.trans h.src, h'.dst.trans h.dst, h'.b1.trans h.b1, h'.w2.trans h.w2, h'.b2.trans h.b2,
    h'.nout.trans h.nout, h'.nin.trans h.nin⟩

/-- The gather, the scatter-add and the column of in-norms after the first region write none of the seven. -/
theorem same_mid1 : Same W (after hostOps1_1 (after hostOps1 W)) :=
  ⟨by after_results_simp, by after_results_simp, by after_results_simp, by after_results_simp, by after_results_simp,
    by after_results_simp, by after_results_simp⟩

theorem same_mid2 : Same W (after hostOps2 W) :=
  ⟨by after_results_simp, by after_results_simp, by after_results_simp, by after_results_simp, by after_results_simp,
    by after_results_simp, by after_results_simp⟩

theorem same_mid3 : Same W (after hostOps3_1 (after hostOps3 W)) :=
  ⟨by after_results_simp, by after_results_simp, by after_results_simp, by after_results_simp, by after_results_simp,
    by after_results_simp, by after_results_simp⟩

attribute [local irreducible] Host.reduce Host.gather Host.scatterAdd in
/-- After the first region: the aggregation of its result, and the column of in-norms. -/
theorem mid1_agg : after hostOps1_1 (after hostOps1 W) (Proc.devRef .tc main_v17)
    = kAgg (W (Proc.devRef .tc main_v13)) (W (Proc.devRef .tc main_arg1)) (W (Proc.devRef .tc main_arg2)) := by
  after_results_simp
  simp only [Cert.Lib.HostLine.ofBuf_toBuf]
  rfl

theorem mid1_col : after hostOps1_1 (after hostOps1 W) (Proc.devRef .tc main_v18) = kCol (W (Proc.devRef .tc main_v11)) := by
  after_results_simp
  rfl

/-- Between the second and third regions: the column of out-norms; the second region's result is left alone. -/
theorem mid2_col : after hostOps2 W (Proc.devRef .tc main_v20) = kCol (W (Proc.devRef .tc main_v5)) := by
  after_results_simp
  rfl

theorem mid2_keep : after hostOps2 W (Proc.devRef .tc main_v19) = W (Proc.devRef .tc main_v19) := by after_results_simp

attribute [local irreducible] Host.reduce Host.gather Host.scatterAdd in
/-- After the third region: the aggregation of its result, and the column of in-norms. -/
theorem mid3_agg : after hostOps3_1 (after hostOps3 W) (Proc.devRef .tc main_v25)
    = kAgg (W (Proc.devRef .tc main_v21)) (W (Proc.devRef .tc main_arg1)) (W (Proc.devRef .tc main_arg2)) := by
  after_results_simp
  simp only [Cert.Lib.HostLine.ofBuf_toBuf]
  rfl

theorem mid3_col : after hostOps3_1 (after hostOps3 W) (Proc.devRef .tc main_v26) = kCol (W (Proc.devRef .tc main_v11)) := by
  after_results_simp
  rfl

end Stretches

/-! ## Through the run: the fold's boundaries, one device `c` -/

section Run

variable (m : (ℓ : Loc nD τ sig) → Buf (Elt Ideal) ℓ) (ρ : Dev nD → PrngReg) (c : Dev nD)

/-- The first region's arrays are the features, the out-norm column, the first weight matrix and its own result:
    none of the seven. -/
theorem same_r0 : Same (W5 m ρ c) (W6 m ρ c) :=
  ⟨W6_of_ne m ρ c main_arg1 (by decide), W6_of_ne m ρ c main_arg2 (by decide), W6_of_ne m ρ c main_arg4 (by decide),
    W6_of_ne m ρ c main_arg5 (by decide), W6_of_ne m ρ c main_arg6 (by decide), W6_of_ne m ρ c main_v5 (by decide),
    W6_of_ne m ρ c main_v11 (by decide)⟩

/-- The second region reads the first bias through an input window, which is never written back; the other six are
    none of its arrays. -/
theorem same_r1 : Same (W8 m ρ c) (W9 m ρ c) :=
  ⟨W9_of_ne m ρ c main_arg1 (by decide), W9_of_ne m ρ c main_arg2 (by decide),
    (W9_arr m ρ c 2).trans (((dat1 (V8 m ρ) c).arrAt_in 2 rfl _).trans (A_eq1 (V8 m ρ) c 2)),
    W9_of_ne m ρ c main_arg5 (by decide), W9_of_ne m ρ c main_arg6 (by decide), W9_of_ne m ρ c main_v5 (by decide),
    W9_of_ne m ρ c main_v11 (by decide)⟩

/-- The third region reads the second weight matrix through an input window; the other six are none of its arrays. -/
theorem same_r2 : Same (W10 m ρ c) (W11 m ρ c) :=
  ⟨W11_of_ne m ρ c main_arg1 (by decide), W11_of_ne m ρ c main_arg2 (by decide), W11_of_ne m ρ c main_arg4 (by decide),
    (W11_arr m ρ c 2).trans (((dat2 (V10 m ρ) c).arrAt_in 2 rfl _).trans (A_eq2 (V10 m ρ) c 2)),
    W11_of_ne m ρ c main_arg6 (by decide), W11_of_ne m ρ c main_v5 (by decide), W11_of_ne m ρ c main_v11 (by decide)⟩

theorem same_5_8 : Same (W5 m ρ c) (W8 m ρ c) := (same_r0 m ρ c).trans (same_mid1 (W6 m ρ c))
theorem same_5_9 : Same (W5 m ρ c) (W9 m ρ c) := (same_5_8 m ρ c).trans (same_r1 m ρ c)
theorem same_5_10 : Same (W5 m ρ c) (W10 m ρ c) := (same_5_9 m ρ c).trans (same_mid2 (W9 m ρ c))
theorem same_5_11 : Same (W5 m ρ c) (W11 m ρ c) := (same_5_10 m ρ c).trans (same_r2 m ρ c)

/-! ### At the first region's entry -/

theorem at5_x : W5 m ρ c (Proc.devRef .tc main_arg0) = (m ((c.tc : Thread nD τ).loc main_arg0)) := pre_arg0 (W0 m ρ c)
theorem at5_w1 : W5 m ρ c (Proc.devRef .tc main_arg3) = (m ((c.tc : Thread nD τ).loc main_arg3)) := pre_arg3 (W0 m ρ c)
theorem at5_src : W5 m ρ c (Proc.devRef .tc main_arg1) = (m ((c.tc : Thread nD τ).loc main_arg1)) := pre_arg1 (W0 m ρ c)
theorem at5_dst : W5 m ρ c (Proc.devRef .tc main_arg2) = (m ((c.tc : Thread nD τ).loc main_arg2)) := pre_arg2 (W0 m ρ c)
theorem at5_b1 : W5 m ρ c (Proc.devRef .tc main_arg4) = (m ((c.tc : Thread nD τ).loc main_arg4)) := pre_arg4 (W0 m ρ c)
theorem at5_w2 : W5 m ρ c (Proc.devRef .tc main_arg5) = (m ((c.tc : Thread nD τ).loc main_arg5)) := pre_arg5 (W0 m ρ c)
theorem at5_b2 : W5 m ρ c (Proc.devRef .tc main_arg6) = (m ((c.tc : Thread nD τ).loc main_arg6)) := pre_arg6 (W0 m ρ c)
theorem at5_nout : W5 m ρ c (Proc.devRef .tc main_v5) = Cert.GraphConv.degNorm (m ((c.tc : Thread nD τ).loc main_arg1)) :=
  (pre_v5 (W0 m ρ c)).trans (kDegNorm_eq _)
theorem at5_nin : W5 m ρ c (Proc.devRef .tc main_v11) = Cert.GraphConv.degNorm (m ((c.tc : Thread nD τ).loc main_arg2)) :=
  (pre_v11 (W0 m ρ c)).trans (kDegNorm_eq _)
theorem at5_col : W5 m ρ c (Proc.devRef .tc main_v12) = Cert.GraphConv.col (Cert.GraphConv.degNorm (m ((c.tc : Thread nD τ).loc main_arg1))) :=
  (pre_v12 (W0 m ρ c)).trans ((kCol_eq _).trans (congrArg Cert.GraphConv.col (kDegNorm_eq _)))

/-! ### The first layer -/

/-- The first region leaves the transform of the features. -/
theorem first_transform : W6 m ρ c (Proc.devRef .tc main_v13)
    = Cert.GraphConv.transform (m ((c.tc : Thread nD τ).loc main_arg0)) (Cert.GraphConv.col (Cert.GraphConv.degNorm (m ((c.tc : Thread nD τ).loc main_arg1)))) (m ((c.tc : Thread nD τ).loc main_arg3)) := by
  refine (W6_arr m ρ c 3).trans ?_
  refine (RegionTransform.region0 (V5 m ρ) c).trans ?_
  show Cert.GraphConv.transform (W5 m ρ c (Proc.devRef .tc main_arg0)) (W5 m ρ c (Proc.devRef .tc main_v12)) (W5 m ρ c (Proc.devRef .tc main_arg3)) = _
  rw [at5_x, at5_col, at5_w1]

/-- The second region leaves the first layer's output. -/
theorem first_layer : W9 m ρ c (Proc.devRef .tc main_v19)
    = Cert.GraphConv.layer (m ((c.tc : Thread nD τ).loc main_arg0)) (m ((c.tc : Thread nD τ).loc main_arg3)) (m ((c.tc : Thread nD τ).loc main_arg4)) (m ((c.tc : Thread nD τ).loc main_arg1)) (m ((c.tc : Thread nD τ).loc main_arg2)) := by
  refine (W9_arr m ρ c 3).trans ?_
  refine (RegionPost.region1 (V8 m ρ) c).trans ?_
  show Cert.GraphConv.post (W8 m ρ c (Proc.devRef .tc main_v17)) (W8 m ρ c (Proc.devRef .tc main_v18)) (W8 m ρ c (Proc.devRef .tc main_arg4)) = _
  rw [show W8 m ρ c (Proc.devRef .tc main_v17) = _ from mid1_agg (W6 m ρ c), show W8 m ρ c (Proc.devRef .tc main_v18) = _ from mid1_col (W6 m ρ c),
    (same_5_8 m ρ c).b1, at5_b1, kAgg_eq, kCol_eq, first_transform,
    (same_r0 m ρ c).src, (same_r0 m ρ c).dst, (same_r0 m ρ c).nin, at5_src, at5_dst, at5_nin]
  rfl

/-! ### The second layer -/

/-- The third region leaves the transform of the first layer's output. -/
theorem second_transform : W11 m ρ c (Proc.devRef .tc main_v21)
    = Cert.GraphConv.transform
        (Cert.GraphConv.layer (m ((c.tc : Thread nD τ).loc main_arg0)) (m ((c.tc : Thread nD τ).loc main_arg3)) (m ((c.tc : Thread nD τ).loc main_arg4)) (m ((c.tc : Thread nD τ).loc main_arg1)) (m ((c.tc : Thread nD τ).loc main_arg2)))
        (Cert.GraphConv.col (Cert.GraphConv.degNorm (m ((c.tc : Thread nD τ).loc main_arg1)))) (m ((c.tc : Thread nD τ).loc main_arg5)) := by
  refine (W11_arr m ρ c 3).trans ?_
  refine (RegionTransform.region2 (V10 m ρ) c).trans ?_
  show Cert.GraphConv.transform (W10 m ρ c (Proc.devRef .tc main_v19)) (W10 m ρ c (Proc.devRef .tc main_v20)) (W10 m ρ c (Proc.devRef .tc main_arg5)) = _
  rw [show W10 m ρ c (Proc.devRef .tc main_v19) = _ from mid2_keep (W9 m ρ c), show W10 m ρ c (Proc.devRef .tc main_v20) = _ from mid2_col (W9 m ρ c),
    (same_5_10 m ρ c).w2, at5_w2, kCol_eq, first_layer, (same_5_9 m ρ c).nout, at5_nout]

/-- The last region leaves the second layer's output: the two-layer function of the arguments. -/
theorem result : W14 m ρ c (Proc.devRef .tc main_v27)
    = Cert.GraphConv.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W14_arr m ρ c 3).trans ?_
  refine (RegionPost.region3 (V13 m ρ) c).trans ?_
  show Cert.GraphConv.post (W13 m ρ c (Proc.devRef .tc main_v25)) (W13 m ρ c (Proc.devRef .tc main_v26)) (W13 m ρ c (Proc.devRef .tc main_arg6)) = _
  rw [show W13 m ρ c (Proc.devRef .tc main_v25) = _ from mid3_agg (W11 m ρ c), show W13 m ρ c (Proc.devRef .tc main_v26) = _ from mid3_col (W11 m ρ c),
    show W13 m ρ c (Proc.devRef .tc main_arg6) = _ from (same_mid3 (W11 m ρ c)).b2, (same_5_11 m ρ c).b2, at5_b2, kAgg_eq, kCol_eq, second_transform,
    (same_5_11 m ρ c).src, (same_5_11 m ρ c).dst, (same_5_11 m ρ c).nin, at5_src, at5_dst, at5_nin]
  rfl

end Run

end Cert.KernelIdeal.Chain

end
-- ==== Proof.LibChainSeq.lean ====
/-
  A host program written as several lines of operations one after the other is the one line of all its operations.

  chain_seq: the chain of the runs of the lines l₁, …, lₖ — each run a right-nested sequence of single operations ending
  in the return — is the run of the concatenation l₁ ++ … ++ lₖ. So a long entry function that has been cut into
  items (one per stretch of its own operations, one per inlined call) is a single straight line, to which the
  straight-line run theorem applies.
  after_flatten: the buffer contents after that concatenation are the lines' folds applied in turn, so what a later
  line finds is what the earlier lines left, and each line can be read by itself.
-/
import Idealize.ShloMosaic.Lib.Pipeline.Regions
import Idealize.ShloMosaic.Lib.StableHlo.Run

namespace Cert.Lib.ChainSeq

open Idealize.ShloMosaic Idealize.ShloMosaic.StableHlo Idealize.SL.Sem

variable {nD : Nat} {τ : Topo} {sig : RefSig} {Val : EltTy → Type} {Λ : Labels}

/-- The chain of the lines' runs is the run of their concatenation. -/
theorem chain_seq (ls : List (List (HloOp τ sig Val))) :
    Pipeline.chain (ls.map fun l => (seq l : Prog (TpuEff nD τ sig Val Λ .tc) PUnit)) = seq ls.flatten := by
  induction ls with
  | nil => rfl
  | cons l ls ih => simp only [List.map_cons, Pipeline.chain_cons, List.flatten_cons, seq_append, ih]

/-- Running one line after another is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- The contents after the concatenation of several lines are the lines' folds applied in turn. -/
theorem after_flatten (ls : List (List (HloOp τ sig Val))) (V : Valuation τ sig Val) :
    after ls.flatten V = ls.foldl (fun W l => after l W) V := by
  induction ls generalizing V with
  | nil => rfl
  | cons l ls ih => rw [List.flatten_cons, after_append, List.foldl_cons, ih]

end Cert.Lib.ChainSeq
-- ==== Proof.RefRun.lean ====
/-
  The whole-array program's run, read back.

  Once its calls are opened where they stand (the clamp from below `clip`, twice; the row read `_take`, twice, with the
  select `_where` inside it; the cut at zero `relu`, twice) the program is one straight line of 102 array operations.
  It is written down as sixteen pieces — the program's own operations between two calls, and each call's body — and
  the pieces are grouped into eight consecutive stretches. For each stretch one lemma says what it leaves at the one
  buffer the later stretches read, as a function of what it found (degNorm, transform, agg, post of the specification),
  and one lemma says that a buffer the stretch does not write is left as it was. Composing the eight gives the
  two-layer function G at the result buffer. No operation of the line writes an argument.
-/
import proofs.«141765_j13494787244283_1_alg».proof.Proof.Spec
import proofs.«141765_j13494787244283_1_alg».proof.Proof.Gen.ReferenceIdeal
import proofs.«141765_j13494787244283_1_alg».proof.Proof.LibHostLine
import Idealize.ShloMosaic.Lib.StableHlo.Run
import Idealize.ShloMosaic.Lib.Pipeline.Regions
import proofs.«141765_j13494787244283_1_alg».proof.Proof.LibChainSeq

noncomputable section

namespace Cert.ReferenceIdeal.HandRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-! ## The line, piece by piece -/

/-- Ones scatter-added into zeros at the first endpoint array's nodes, and the scalar one. -/
abbrev oCnt0 : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg1 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32) ]
/-- The callee `clip` opened at its first call: its scalar converted, broadcast, the maximum. -/
abbrev oClip0 : List (HloOp τ sig (Elt F)) :=
  [ TRef.unary (.of main_cst_1 : TRef sig ⟨S_, .f32⟩) main_call0.v0 id,
    TRef.unary main_call0.v0 main_call0.v1 (broadcastInDim S100000 ![] bcast_S_S100000),
    TRef.binary main_call0.v1 (.of main_v3 : TRef sig ⟨S100000, .f32⟩) main_call0.v2 maximumf ]
/-- The reciprocal square root of the first clamped count. -/
abbrev oRs0 : List (HloOp τ sig (Elt F)) :=
  [ unary main_v4 main_v5 (Host.rsqrt : (⟨S100000, .f32⟩ : BufTy).Contents (Elt F) → (⟨S100000, .f32⟩ : BufTy).Contents (Elt F)) ]
/-- Ones scatter-added into zeros at the second endpoint array's nodes, and the scalar one. -/
abbrev oCnt1 : List (HloOp τ sig (Elt F)) :=
  [ nullary main_cst_2 (constant S_ .f32 0x3F800000#32),
    unary main_cst_2 main_v6 (broadcastInDim S1600000 ![] bcast_S_S1600000 : (⟨S_, .f32⟩ : BufTy).Contents (Elt F) → (⟨S1600000, .f32⟩ : BufTy).Contents (Elt F)),
    nullary main_cst_3 (constant S_ .f32 0x00000000#32),
    unary main_cst_3 main_v7 (broadcastInDim S100000 ![] bcast_S_S100000 : (⟨S_, .f32⟩ : BufTy).Contents (Elt F) → (⟨S100000, .f32⟩ : BufTy).Contents (Elt F)),
    unary main_arg2 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_4 (constant S_ .f32 0x3F800000#32) ]
/-- The callee `clip` opened at its second call. -/
abbrev oClip1 : List (HloOp τ sig (Elt F)) :=
  [ TRef.unary (.of main_cst_4 : TRef sig ⟨S_, .f32⟩) main_call1.v0 id,
    TRef.unary main_call1.v0 main_call1.v1 (broadcastInDim S100000 ![] bcast_S_S100000),
    TRef.binary main_call1.v1 (.of main_v9 : TRef sig ⟨S100000, .f32⟩) main_call1.v2 maximumf ]
/-- The reciprocal square root of the second clamped count. -/
abbrev oRs1 : List (HloOp τ sig (Elt F)) :=
  [ unary main_v10 main_v11 (Host.rsqrt : (⟨S100000, .f32⟩ : BufTy).Contents (Elt F) → (⟨S100000, .f32⟩ : BufTy).Contents (Elt F)) ]
/-- The first layer's rows scaled by the first normalisation and multiplied by the first weight matrix. -/
abbrev oT1 : List (HloOp τ sig (Elt F)) :=
  [ unary main_v5 main_v12 (broadcastInDim S100000x1 ![0] bcast_S100000_S100000x1_0 : (⟨S100000, .f32⟩ : BufTy).Contents (Elt F) → (⟨S100000x1, .f32⟩ : BufTy).Contents (Elt F)),
    unary main_v12 main_v13 (broadcastInDim S100000x128 ![0, 1] bcast_S100000x1_S100000x128_0_1 : (⟨S100000x1, .f32⟩ : BufTy).Contents (Elt F) → (⟨S100000x128, .f32⟩ : BufTy).Contents (Elt F)),
    binary main_arg0 main_v13 main_v14 (mulf : (⟨S100000x128, .f32⟩ : BufTy).Contents (Elt F) → (⟨S100000x128, .f32⟩ : BufTy).Contents (Elt F) → (⟨S100000x128, .f32⟩ : BufTy).Contents (Elt F)),
    binary main_v14 main_arg3 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The callee `_take` opened at its first call: the row index counted from the end where negative (the select is the
    callee `_where`), its range test, the gather, the fill where out of range. -/
abbrev oTake0 : List (HloOp τ sig (Elt F)) :=
  [ TRef.nullary main_call2.c (constantI S_ 32 0#32),
    TRef.unary main_call2.c main_call2.v0 (broadcastInDim S1600000 ![] bcast_S_S1600000),
    TRef.binary (.of main_arg1 : TRef sig ⟨S1600000, .i32⟩) main_call2.v0 main_call2.v1 (cmpi .slt),
    TRef.nullary main_call2.c_0 (constantI S_ 32 100000#32),
    TRef.unary main_call2.c_0 main_call2.v2 (broadcastInDim S1600000 ![] bcast_S_S1600000),
    TRef.binary (.of main_arg1 : TRef sig ⟨S1600000, .i32⟩) main_call2.v2 main_call2.v3 addi,
    TRef.ternary main_call2.v1 main_call2.v3 (.of main_arg1 : TRef sig ⟨S1600000, .i32⟩) main_call2.call0.v0 select,
    TRef.unary main_call2.call0.v0 main_call2.v5 (broadcastInDim S1600000x1 ![0] bcast_S1600000_S1600000x1_0),
    TRef.nullary main_call2.c_1 (constantI S1 32 99999#32),
    TRef.nullary main_call2.c_2 (constantI S_ 32 0#32),
    TRef.unary main_call2.c_2 main_call2.v6 (broadcastInDim S1600000x1 ![] bcast_S_S1600000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S1600000x1 ![0, 1] bcast_S1x1_S1600000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S1600000x1_S1600000_d1 h_S_),
    TRef.binary (.of main_v15 : TRef sig ⟨S100000x128, .f32⟩) main_call2.v5 main_call2.v13 (fun x i => Host.gather gather_S100000x128_S1600000x1_S1600000x128_1_0_n_n_0_1_1128 x i),
    TRef.unary main_call2.v12 main_call2.v14 (broadcastInDim S1600000x128 ![0] bcast_S1600000_S1600000x128_0),
    TRef.nullary main_call2.cst (constant S_ .f32 0x7FC00000#32),
    TRef.unary main_call2.cst main_call2.v15 (broadcastInDim S1600000x128 ![] bcast_S_S1600000x128),
    TRef.ternary main_call2.v14 main_call2.v13 main_call2.v15 main_call2.v16 select ]
/-- The first layer's rows read per edge, scatter-added into zeros at the second endpoint. -/
abbrev oSc0 : List (HloOp τ sig (Elt F)) :=
  [ nullary main_cst_5 (constant S_ .f32 0x00000000#32),
    unary main_cst_5 main_v17 (broadcastInDim S100000x128 ![] bcast_S_S100000x128 : (⟨S_, .f32⟩ : BufTy).Contents (Elt F) → (⟨S100000x128, .f32⟩ : BufTy).Contents (Elt F)),
    unary main_arg2 main_v18 (broadcastInDim S1600000x1 ![0] bcast_S1600000_S1600000x1_0 : (⟨S1600000, .i32⟩ : BufTy).Contents (Elt F) → (⟨S1600000x1, .i32⟩ : BufTy).Contents (Elt F)),
    ternary main_v17 main_v18 main_v16 main_v19 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]
/-- The first layer's sums scaled by the second normalisation, the bias added. -/
abbrev oPo0 : List (HloOp τ sig (Elt F)) :=
  [ unary main_v11 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v19 main_v21 main_v22 (mulf : (⟨S100000x128, .f32⟩ : BufTy).Contents (Elt F) → (⟨S100000x128, .f32⟩ : BufTy).Contents (Elt F) → (⟨S100000x128, .f32⟩ : BufTy).Contents (Elt F)),
    unary main_arg4 main_v23 (broadcastInDim S1x128 ![1] bcast_S128_S1x128_1 : (⟨S128, .f32⟩ : BufTy).Contents (Elt F) → (⟨S1x128, .f32⟩ : BufTy).Contents (Elt F)),
    unary main_v23 main_v24 (broadcastInDim S100000x128 ![0, 1] bcast_S1x128_S100000x128_0_1 : (⟨S1x128, .f32⟩ : BufTy).Contents (Elt F) → (⟨S100000x128, .f32⟩ : BufTy).Contents (Elt F)),
    binary main_v22 main_v24 main_v25 (addf : (⟨S100000x128, .f32⟩ : BufTy).Contents (Elt F) → (⟨S100000x128, .f32⟩ : BufTy).Contents (Elt F) → (⟨S100000x128, .f32⟩ : BufTy).Contents (Elt F)) ]
/-- The callee `relu` opened at its first call: the zero, its broadcast, the maximum. -/
abbrev oRelu0 : List (HloOp τ sig (Elt F)) :=
  [ TRef.nullary main_call3.cst (constant S_ .f32 0x00000000#32),
    TRef.unary main_call3.cst main_call3.v0 (broadcastInDim S100000x128 ![] bcast_S_S100000x128),
    TRef.binary (.of main_v25 : TRef sig ⟨S100000x128, .f32⟩) main_call3.v0 main_call3.v1 maximumf ]
/-- The second layer's rows scaled by the first normalisation and multiplied by the second weight matrix. -/
abbrev oT2 : List (HloOp τ sig (Elt F)) :=
  [ unary main_v5 main_v27 (broadcastInDim S100000x1 ![0] bcast_S100000_S100000x1_0 : (⟨S100000, .f32⟩ : BufTy).Contents (Elt F) → (⟨S100000x1, .f32⟩ : BufTy).Contents (Elt F)),
    unary main_v27 main_v28 (broadcastInDim S100000x128 ![0, 1] bcast_S100000x1_S100000x128_0_1 : (⟨S100000x1, .f32⟩ : BufTy).Contents (Elt F) → (⟨S100000x128, .f32⟩ : BufTy).Contents (Elt F)),
    binary main_v26 main_v28 main_v29 (mulf : (⟨S100000x128, .f32⟩ : BufTy).Contents (Elt F) → (⟨S100000x128, .f32⟩ : BufTy).Contents (Elt F) → (⟨S100000x128, .f32⟩ : BufTy).Contents (Elt F)),
    binary main_v29 main_arg5 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The callee `_take` opened at its second call. -/
abbrev oTake1 : List (HloOp τ sig (Elt F)) :=
  [ TRef.nullary main_call4.c (constantI S_ 32 0#32),
    TRef.unary main_call4.c main_call4.v0 (broadcastInDim S1600000 ![] bcast_S_S1600000),
    TRef.binary (.of main_arg1 : TRef sig ⟨S1600000, .i32⟩) main_call4.v0 main_call4.v1 (cmpi .slt),
    TRef.nullary main_call4.c_0 (constantI S_ 32 100000#32),
    TRef.unary main_call4.c_0 main_call4.v2 (broadcastInDim S1600000 ![] bcast_S_S1600000),
    TRef.binary (.of main_arg1 : TRef sig ⟨S1600000, .i32⟩) main_call4.v2 main_call4.v3 addi,
    TRef.ternary main_call4.v1 main_call4.v3 (.of main_arg1 : TRef sig ⟨S1600000, .i32⟩) main_call4.call0.v0 select,
    TRef.unary main_call4.call0.v0 main_call4.v5 (broadcastInDim S1600000x1 ![0] bcast_S1600000_S1600000x1_0),
    TRef.nullary main_call4.c_1 (constantI S1 32 99999#32),
    TRef.nullary main_call4.c_2 (constantI S_ 32 0#32),
    TRef.unary main_call4.c_2 main_call4.v6 (broadcastInDim S1600000x1 ![] bcast_S_S1600000x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S1600000x1 ![0, 1] bcast_S1x1_S1600000x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S1600000x1_S1600000_d1 h_S_),
    TRef.binary (.of main_v30 : TRef sig ⟨S100000x128, .f32⟩) main_call4.v5 main_call4.v13 (fun x i => Host.gather gather_S100000x128_S1600000x1_S1600000x128_1_0_n_n_0_1_1128 x i),
    TRef.unary main_call4.v12 main_call4.v14 (broadcastInDim S1600000x128 ![0] bcast_S1600000_S1600000x128_0),
    TRef.nullary main_call4.cst (constant S_ .f32 0x7FC00000#32),
    TRef.unary main_call4.cst main_call4.v15 (broadcastInDim S1600000x128 ![] bcast_S_S1600000x128),
    TRef.ternary main_call4.v14 main_call4.v13 main_call4.v15 main_call4.v16 select ]
/-- The second layer's rows read per edge, scatter-added into zeros at the second endpoint. -/
abbrev oSc1 : List (HloOp τ sig (Elt F)) :=
  [ nullary main_cst_6 (constant S_ .f32 0x00000000#32),
    unary main_cst_6 main_v32 (broadcastInDim S100000x128 ![] bcast_S_S100000x128 : (⟨S_, .f32⟩ : BufTy).Contents (Elt F) → (⟨S100000x128, .f32⟩ : BufTy).Contents (Elt F)),
    unary main_arg2 main_v33 (broadcastInDim S1600000x1 ![0] bcast_S1600000_S1600000x1_0 : (⟨S1600000, .i32⟩ : BufTy).Contents (Elt F) → (⟨S1600000x1, .i32⟩ : BufTy).Contents (Elt F)),
    ternary main_v32 main_v33 main_v31 main_v34 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]
/-- The second layer's sums scaled by the second normalisation, the bias added. -/
abbrev oPo1 : List (HloOp τ sig (Elt F)) :=
  [ unary main_v11 main_v35 (broadcastInDim S100000x1 ![0] bcast_S100000_S100000x1_0 : (⟨S100000, .f32⟩ : BufTy).Contents (Elt F) → (⟨S100000x1, .f32⟩ : BufTy).Contents (Elt F)),
    unary main_v35 main_v36 (broadcastInDim S100000x128 ![0, 1] bcast_S100000x1_S100000x128_0_1 : (⟨S100000x1, .f32⟩ : BufTy).Contents (Elt F) → (⟨S100000x128, .f32⟩ : BufTy).Contents (Elt F)),
    binary main_v34 main_v36 main_v37 (mulf : (⟨S100000x128, .f32⟩ : BufTy).Contents (Elt F) → (⟨S100000x128, .f32⟩ : BufTy).Contents (Elt F) → (⟨S100000x128, .f32⟩ : BufTy).Contents (Elt F)),
    unary main_arg6 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v37 main_v39 main_v40 (addf : (⟨S100000x128, .f32⟩ : BufTy).Contents (Elt F) → (⟨S100000x128, .f32⟩ : BufTy).Contents (Elt F) → (⟨S100000x128, .f32⟩ : BufTy).Contents (Elt F)) ]
/-- The callee `relu` opened at its second call. -/
abbrev oRelu1 : List (HloOp τ sig (Elt F)) :=
  [ TRef.nullary main_call5.cst (constant S_ .f32 0x00000000#32),
    TRef.unary main_call5.cst main_call5.v0 (broadcastInDim S100000x128 ![] bcast_S_S100000x128),
    TRef.binary (.of main_v40 : TRef sig ⟨S100000x128, .f32⟩) main_call5.v0 main_call5.v1 maximumf ]

/-! The eight stretches the reading below goes by. -/

/-- The degree normalisation of the first endpoint array. -/
def opsDegS : List (HloOp τ sig (Elt F)) := oCnt0 ++ (oClip0 ++ oRs0)
/-- The degree normalisation of the second endpoint array. -/
def opsDegD : List (HloOp τ sig (Elt F)) := oCnt1 ++ (oClip1 ++ oRs1)
/-- The first layer's sum over the edges. -/
def opsAgg1 : List (HloOp τ sig (Elt F)) := oTake0 ++ oSc0
/-- The first layer's scaling, bias and cut at zero. -/
def opsPost1 : List (HloOp τ sig (Elt F)) := oPo0 ++ oRelu0
/-- The second layer's sum over the edges. -/
def opsAgg2 : List (HloOp τ sig (Elt F)) := oTake1 ++ oSc1
/-- The second layer's scaling, bias and cut at zero. -/
def opsPost2 : List (HloOp τ sig (Elt F)) := oPo1 ++ oRelu1

/-- The program's 102 operations, in order. -/
def ops : List (HloOp τ sig (Elt F)) :=
  opsDegS ++ (opsDegD ++ (oT1 ++ (opsAgg1 ++ (opsPost1 ++ (oT2 ++ (opsAgg2 ++ opsPost2))))))

/-! ## The program is that line -/

/-- The program as the chain of its own stretches and its calls' bodies, a boundary at every call. -/
theorem main_chain (c : Dev nD) : main (F := F) c = (Pipeline.chain
  ([oCnt0, oClip0, oRs0 ++ oCnt1, oClip1, oRs1 ++ oT1, oTake0, oSc0 ++ oPo0, oRelu0, oT2, oTake1, oSc1 ++ oPo1, oRelu1].map
    fun l => (seq l : Prog (TpuEff nD τ sig (Elt F) (Pipeline.Sig Λ₀ (Fin 0) fun p => (pcfgs (F := F) p).Adm) .tc) PUnit))) := by
  chain_rfl

/-- The program is the one line of its 102 operations. -/
theorem main_eq (c : Dev nD) : main (F := F) c = seq ops :=
  (main_chain c).trans (Cert.Lib.ChainSeq.chain_seq
    [oCnt0, oClip0, oRs0 ++ oCnt1, oClip1, oRs1 ++ oT1, oTake0, oSc0 ++ oPo0, oRelu0, oT2, oTake1, oSc1 ++ oPo1, oRelu1])

theorem scopedRefs_eq : (Finset.univ.filter fun b : Ref sig .tc => b.isScoped) = ∅ := by decide
theorem scopedSems_eq : (Finset.univ.filter fun sm : SemLoc sig => sm.isScoped .tc) = ∅ := by decide

/-! Every operation touches buffers of the core only, and determines what it writes. -/

theorem oCnt_sub₀ : (oCnt0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub ..⟩
theorem oClip_sub₀ : (oClip0 : List (HloOp τ sig (Elt F))).Forall fun op => op.bufs ⊆ tcRefs τ sig :=
  ⟨unary_bufs_sub .., unary_bufs_sub .., binary_bufs_sub ..⟩
theorem oRs_sub₀ : (oRs0 : List (HloOp τ sig (Elt F))).Forall fun op => op.bufs ⊆ tcRefs τ sig :=
  unary_bufs_sub ..
theorem oCnt_sub₁ : (oCnt1 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub ..⟩
theorem oClip_sub₁ : (oClip1 : List (HloOp τ sig (Elt F))).Forall fun op => op.bufs ⊆ tcRefs τ sig :=
  ⟨unary_bufs_sub .., unary_bufs_sub .., binary_bufs_sub ..⟩
theorem oRs_sub₁ : (oRs1 : List (HloOp τ sig (Elt F))).Forall fun op => op.bufs ⊆ tcRefs τ sig :=
  unary_bufs_sub ..
theorem oT_sub₁ : (oT1 : List (HloOp τ sig (Elt F))).Forall fun op => op.bufs ⊆ tcRefs τ sig :=
  ⟨unary_bufs_sub .., unary_bufs_sub .., binary_bufs_sub .., binary_bufs_sub ..⟩
theorem oTake_sub₀ : (oTake0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem oSc_sub₀ : (oSc0 : List (HloOp τ sig (Elt F))).Forall fun op => op.bufs ⊆ tcRefs τ sig :=
  ⟨nullary_bufs_sub .., unary_bufs_sub .., unary_bufs_sub .., ternary_bufs_sub ..⟩
theorem oPo_sub₀ : (oPo0 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem oRelu_sub₀ : (oRelu0 : List (HloOp τ sig (Elt F))).Forall fun op => op.bufs ⊆ tcRefs τ sig :=
  ⟨nullary_bufs_sub .., unary_bufs_sub .., binary_bufs_sub ..⟩
theorem oT_sub₂ : (oT2 : List (HloOp τ sig (Elt F))).Forall fun op => op.bufs ⊆ tcRefs τ sig :=
  ⟨unary_bufs_sub .., unary_bufs_sub .., binary_bufs_sub .., binary_bufs_sub ..⟩
theorem oTake_sub₁ : (oTake1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem oSc_sub₁ : (oSc1 : List (HloOp τ sig (Elt F))).Forall fun op => op.bufs ⊆ tcRefs τ sig :=
  ⟨nullary_bufs_sub .., unary_bufs_sub .., unary_bufs_sub .., ternary_bufs_sub ..⟩
theorem oPo_sub₁ : (oPo1 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem oRelu_sub₁ : (oRelu1 : List (HloOp τ sig (Elt F))).Forall fun op => op.bufs ⊆ tcRefs τ sig :=
  ⟨nullary_bufs_sub .., unary_bufs_sub .., binary_bufs_sub ..⟩

theorem ops_sub : (ops : List (HloOp τ sig (Elt F))).Forall fun op => op.bufs ⊆ tcRefs τ sig := by
  simp only [ops, opsDegS, opsDegD, opsAgg1, opsPost1, opsAgg2, opsPost2, List.forall_append]
  exact ⟨⟨oCnt_sub₀, oClip_sub₀, oRs_sub₀⟩, ⟨oCnt_sub₁, oClip_sub₁, oRs_sub₁⟩, oT_sub₁, ⟨oTake_sub₀, oSc_sub₀⟩, ⟨oPo_sub₀, oRelu_sub₀⟩,
    oT_sub₂, ⟨oTake_sub₁, oSc_sub₁⟩, oPo_sub₁, oRelu_sub₁⟩

theorem ops_fresh : ∀ op ∈ (ops : List (HloOp τ sig (Elt F))), op.fresh = ∅ := by
  refine List.forall_iff_forall_mem.mp ?_
  simp only [ops, opsDegS, opsDegD, opsAgg1, opsPost1, opsAgg2, opsPost2, oCnt0, oClip0, oRs0, oCnt1, oClip1, oRs1, oT1, oTake0, oSc0,
    oPo0, oRelu0, oT2, oTake1, oSc1, oPo1, oRelu1, List.cons_append, List.nil_append, List.Forall]
  repeat' constructor

/-! ## What each stretch writes, and leaves alone -/

/-- The buffers the first normalisation's stretch writes. -/
abbrev wDegS : List (Ref sig .tc) :=
  [main_cst, main_v0, main_cst_0, main_v1, main_v2, main_v3, main_cst_1, main_call0_v0, main_call0_v1, main_v4, main_v5]
/-- The buffers the second normalisation's stretch writes. -/
abbrev wDegD : List (Ref sig .tc) :=
  [main_cst_2, main_v6, main_cst_3, main_v7, main_v8, main_v9, main_cst_4, main_call1_v0, main_call1_v1, main_v10, main_v11]
/-- The buffers the first layer's matrix product writes. -/
abbrev wT1 : List (Ref sig .tc) := [main_v12, main_v13, main_v14, main_v15]
/-- The buffers the first layer's sum over the edges writes. -/
abbrev wAgg1 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v16,
   main_cst_5, main_v17, main_v18, main_v19]
/-- The buffers the first layer's scaling, bias and cut write. -/
abbrev wPost1 : List (Ref sig .tc) :=
  [main_v20, main_v21, main_v22, main_v23, main_v24, main_v25, main_call3_cst, main_call3_v0, main_v26]
/-- The buffers the second layer's matrix product writes. -/
abbrev wT2 : List (Ref sig .tc) := [main_v27, main_v28, main_v29, main_v30]
/-- The buffers the second layer's sum over the edges writes. -/
abbrev wAgg2 : List (Ref sig .tc) :=
  [main_call4_c, main_call4_v0, main_call4_v1, main_call4_c_0, main_call4_v2, main_call4_v3, main_call4_v4, main_call4_v5,
   main_call4_c_1, main_call4_c_2, main_call4_v6, main_call4_v7, main_call4_v8, main_call4_v9, main_call4_v10, main_call4_v11,
   main_call4_c_3, main_call4_v12, main_call4_v13, main_call4_v14, main_call4_cst, main_call4_v15, main_v31,
   main_cst_6, main_v32, main_v33, main_v34]
/-- The buffers the second layer's scaling, bias and cut write. -/
abbrev wPost2 : List (Ref sig .tc) :=
  [main_v35, main_v36, main_v37, main_v38, main_v39, main_v40, main_call5_cst, main_call5_v0, main_v41]

theorem opsDegS_writes : (opsDegS : List (HloOp τ sig (Elt F))).Forall fun op => op.writes ⊆ (wDegS.map (Proc.devRef (τ := τ) .tc)).toFinset := by
  simp only [opsDegS, oCnt0, oClip0, oRs0, List.cons_append, List.nil_append, List.Forall]
  refine ⟨?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
theorem opsDegD_writes : (opsDegD : List (HloOp τ sig (Elt F))).Forall fun op => op.writes ⊆ (wDegD.map (Proc.devRef (τ := τ) .tc)).toFinset := by
  simp only [opsDegD, oCnt1, oClip1, oRs1, List.cons_append, List.nil_append, List.Forall]
  refine ⟨?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
theorem oT1_writes : (oT1 : List (HloOp τ sig (Elt F))).Forall fun op => op.writes ⊆ (wT1.map (Proc.devRef (τ := τ) .tc)).toFinset := by
  simp only [List.Forall]
  refine ⟨?_, ?_, ?_, ?_⟩ <;>
    (simp only [nullary_writes, unary_writes, binary_writes, ternary_writes, Finset.singleton_subset_iff, List.mem_toFinset]; exact List.mem_map_of_mem (by decide))
theorem opsAgg1_writes : (opsAgg1 : List (HloOp τ sig (Elt F))).Forall fun op => op.writes ⊆ (wAgg1.map (Proc.devRef (τ := τ) .tc)).toFinset := by
  simp only [opsAgg1, oTake0, oSc0, List.cons_append, List.nil_append, List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
theorem opsPost1_writes : (opsPost1 : List (HloOp τ sig (Elt F))).Forall fun op => op.writes ⊆ (wPost1.map (Proc.devRef (τ := τ) .tc)).toFinset := by
  simp only [opsPost1, oPo0, oRelu0, List.cons_append, List.nil_append, List.Forall]
  refine ⟨?_, ?_, ?_, ?_, ?_, ?_, ?_, ?_, ?_⟩ <;>
    (simp only [nullary_writes, unary_writes, binary_writes, ternary_writes, Finset.singleton_subset_iff, List.mem_toFinset]; exact List.mem_map_of_mem (by decide))
theorem oT2_writes : (oT2 : List (HloOp τ sig (Elt F))).Forall fun op => op.writes ⊆ (wT2.map (Proc.devRef (τ := τ) .tc)).toFinset := by
  simp only [List.Forall]
  refine ⟨?_, ?_, ?_, ?_⟩ <;>
    (simp only [nullary_writes, unary_writes, binary_writes, ternary_writes, Finset.singleton_subset_iff, List.mem_toFinset]; exact List.mem_map_of_mem (by decide))
theorem opsAgg2_writes : (opsAgg2 : List (HloOp τ sig (Elt F))).Forall fun op => op.writes ⊆ (wAgg2.map (Proc.devRef (τ := τ) .tc)).toFinset := by
  simp only [opsAgg2, oTake1, oSc1, List.cons_append, List.nil_append, List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
theorem opsPost2_writes : (opsPost2 : List (HloOp τ sig (Elt F))).Forall fun op => op.writes ⊆ (wPost2.map (Proc.devRef (τ := τ) .tc)).toFinset := by
  simp only [opsPost2, oPo1, oRelu1, List.cons_append, List.nil_append, List.Forall]
  refine ⟨?_, ?_, ?_, ?_, ?_, ?_, ?_, ?_, ?_⟩ <;>
    (simp only [nullary_writes, unary_writes, binary_writes, ternary_writes, Finset.singleton_subset_iff, List.mem_toFinset]; exact List.mem_map_of_mem (by decide))

/-- A buffer a stretch does not write keeps its contents through it. -/
theorem keepDegS (V : Valuation τ sig (Elt F)) (r : Ref sig .tc) (h : r ∉ wDegS) :
    after opsDegS V (Proc.devRef .tc r) = V (Proc.devRef .tc r) := after_of_writes_sub opsDegS V opsDegS_writes h
theorem keepDegD (V : Valuation τ sig (Elt F)) (r : Ref sig .tc) (h : r ∉ wDegD) :
    after opsDegD V (Proc.devRef .tc r) = V (Proc.devRef .tc r) := after_of_writes_sub opsDegD V opsDegD_writes h
theorem keepT1 (V : Valuation τ sig (Elt F)) (r : Ref sig .tc) (h : r ∉ wT1) :
    after oT1 V (Proc.devRef .tc r) = V (Proc.devRef .tc r) := after_of_writes_sub oT1 V oT1_writes h
theorem keepAgg1 (V : Valuation τ sig (Elt F)) (r : Ref sig .tc) (h : r ∉ wAgg1) :
    after opsAgg1 V (Proc.devRef .tc r) = V (Proc.devRef .tc r) := after_of_writes_sub opsAgg1 V opsAgg1_writes h
theorem keepPost1 (V : Valuation τ sig (Elt F)) (r : Ref sig .tc) (h : r ∉ wPost1) :
    after opsPost1 V (Proc.devRef .tc r) = V (Proc.devRef .tc r) := after_of_writes_sub opsPost1 V opsPost1_writes h
theorem keepT2 (V : Valuation τ sig (Elt F)) (r : Ref sig .tc) (h : r ∉ wT2) :
    after oT2 V (Proc.devRef .tc r) = V (Proc.devRef .tc r) := after_of_writes_sub oT2 V oT2_writes h
theorem keepAgg2 (V : Valuation τ sig (Elt F)) (r : Ref sig .tc) (h : r ∉ wAgg2) :
    after opsAgg2 V (Proc.devRef .tc r) = V (Proc.devRef .tc r) := after_of_writes_sub opsAgg2 V opsAgg2_writes h
theorem keepPost2 (V : Valuation τ sig (Elt F)) (r : Ref sig .tc) (h : r ∉ wPost2) :
    after opsPost2 V (Proc.devRef .tc r) = V (Proc.devRef .tc r) := after_of_writes_sub opsPost2 V opsPost2_writes h

/-! ## What each stretch computes, at the exact real numbers

A callee's operations move contents between "contents of the buffer" and "contents at the value's type"; at these
buffers the two types are the same and the move is the identity. -/

theorem ofBuf_cst_1 (h1 h2 h3) (v : (⟨S_, .f32⟩ : BufTy).Contents (Elt Ideal)) :
    (TRef.of (sig := sig) (T := ⟨S_, .f32⟩) main_cst_1 h1 h2 h3).ofBuf v = v := rfl
theorem ofBuf_v3 (h1 h2 h3) (v : (⟨S100000, .f32⟩ : BufTy).Contents (Elt Ideal)) :
    (TRef.of (sig := sig) (T := ⟨S100000, .f32⟩) main_v3 h1 h2 h3).ofBuf v = v := rfl
theorem toBuf_v4 (h1 h2 h3) (v : (⟨S100000, .f32⟩ : BufTy).Contents (Elt Ideal)) :
    (TRef.of (sig := sig) (T := ⟨S100000, .f32⟩) main_v4 h1 h2 h3).toBuf v = v := rfl
theorem ofBuf_cst_4 (h1 h2 h3) (v : (⟨S_, .f32⟩ : BufTy).Contents (Elt Ideal)) :
    (TRef.of (sig := sig) (T := ⟨S_, .f32⟩) main_cst_4 h1 h2 h3).ofBuf v = v := rfl
theorem ofBuf_v9 (h1 h2 h3) (v : (⟨S100000, .f32⟩ : BufTy).Contents (Elt Ideal)) :
    (TRef.of (sig := sig) (T := ⟨S100000, .f32⟩) main_v9 h1 h2 h3).ofBuf v = v := rfl
theorem toBuf_v10 (h1 h2 h3) (v : (⟨S100000, .f32⟩ : BufTy).Contents (Elt Ideal)) :
    (TRef.of (sig := sig) (T := ⟨S100000, .f32⟩) main_v10 h1 h2 h3).toBuf v = v := rfl
theorem ofBuf_arg1 (h1 h2 h3) (v : (⟨S1600000, .i32⟩ : BufTy).Contents (Elt Ideal)) :
    (TRef.of (sig := sig) (T := ⟨S1600000, .i32⟩) main_arg1 h1 h2 h3).ofBuf v = v := rfl
theorem ofBuf_v15 (h1 h2 h3) (v : (⟨S100000x128, .f32⟩ : BufTy).Contents (Elt Ideal)) :
    (TRef.of (sig := sig) (T := ⟨S100000x128, .f32⟩) main_v15 h1 h2 h3).ofBuf v = v := rfl
theorem toBuf_v16 (h1 h2 h3) (v : (⟨S1600000x128, .f32⟩ : BufTy).Contents (Elt Ideal)) :
    (TRef.of (sig := sig) (T := ⟨S1600000x128, .f32⟩) main_v16 h1 h2 h3).toBuf v = v := rfl
theorem ofBuf_v25 (h1 h2 h3) (v : (⟨S100000x128, .f32⟩ : BufTy).Contents (Elt Ideal)) :
    (TRef.of (sig := sig) (T := ⟨S100000x128, .f32⟩) main_v25 h1 h2 h3).ofBuf v = v := rfl
theorem toBuf_v26 (h1 h2 h3) (v : (⟨S100000x128, .f32⟩ : BufTy).Contents (Elt Ideal)) :
    (TRef.of (sig := sig) (T := ⟨S100000x128, .f32⟩) main_v26 h1 h2 h3).toBuf v = v := rfl
theorem ofBuf_v30 (h1 h2 h3) (v : (⟨S100000x128, .f32⟩ : BufTy).Contents (Elt Ideal)) :
    (TRef.of (sig := sig) (T := ⟨S100000x128, .f32⟩) main_v30 h1 h2 h3).ofBuf v = v := rfl
theorem toBuf_v31 (h1 h2 h3) (v : (⟨S1600000x128, .f32⟩ : BufTy).Contents (Elt Ideal)) :
    (TRef.of (sig := sig) (T := ⟨S1600000x128, .f32⟩) main_v31 h1 h2 h3).toBuf v = v := rfl
theorem ofBuf_v40 (h1 h2 h3) (v : (⟨S100000x128, .f32⟩ : BufTy).Contents (Elt Ideal)) :
    (TRef.of (sig := sig) (T := ⟨S100000x128, .f32⟩) main_v40 h1 h2 h3).ofBuf v = v := rfl
theorem toBuf_v41 (h1 h2 h3) (v : (⟨S100000x128, .f32⟩ : BufTy).Contents (Elt Ideal)) :
    (TRef.of (sig := sig) (T := ⟨S100000x128, .f32⟩) main_v41 h1 h2 h3).toBuf v = v := rfl

open Cert.GraphConv Cert.Lib.HostLine

attribute [local irreducible] Host.reduce Host.gather Host.scatterAdd Host.rsqrt in
/-- The first stretch leaves the first endpoint array's normalisation. -/
theorem degS_eq (V : Valuation τ sig (Elt Ideal)) :
    after opsDegS V (Proc.devRef .tc main_v5) = degNorm (V (Proc.devRef .tc main_arg1)) := by
  simp only [opsDegS, oCnt0, oClip0, oRs0, List.cons_append, List.nil_append]
  after_results_simp
  simp only [ofBuf_toBuf, ofBuf_cst_1, ofBuf_v3, toBuf_v4]
  rfl

attribute [local irreducible] Host.reduce Host.gather Host.scatterAdd Host.rsqrt in
/-- The second stretch leaves the second endpoint array's normalisation. -/
theorem degD_eq (V : Valuation τ sig (Elt Ideal)) :
    after opsDegD V (Proc.devRef .tc main_v11) = degNorm (V (Proc.devRef .tc main_arg2)) := by
  simp only [opsDegD, oCnt1, oClip1, oRs1, List.cons_append, List.nil_append]
  after_results_simp
  simp only [ofBuf_toBuf, ofBuf_cst_4, ofBuf_v9, toBuf_v10]
  rfl

attribute [local irreducible] Host.reduce Host.gather Host.scatterAdd Host.rsqrt in
/-- The first layer's matrix product, of the features it finds scaled by the normalisation it finds. -/
theorem t1_eq (V : Valuation τ sig (Elt Ideal)) :
    after oT1 V (Proc.devRef .tc main_v15)
      = transform (V (Proc.devRef .tc main_arg0)) (col (V (Proc.devRef .tc main_v5))) (V (Proc.devRef .tc main_arg3)) := by
  simp only [oT1]
  after_results_simp
  rfl

attribute [local irreducible] Host.reduce Host.gather Host.scatterAdd Host.rsqrt in
/-- The first layer's sum over the edges, of the rows it finds. -/
theorem agg1_eq (V : Valuation τ sig (Elt Ideal)) :
    after opsAgg1 V (Proc.devRef .tc main_v19)
      = agg (V (Proc.devRef .tc main_v15)) (V (Proc.devRef .tc main_arg1)) (V (Proc.devRef .tc main_arg2)) := by
  simp only [opsAgg1, oTake0, oSc0, List.cons_append, List.nil_append]
  after_results_simp
  simp only [ofBuf_toBuf, ofBuf_arg1, ofBuf_v15, toBuf_v16]
  rfl

attribute [local irreducible] Host.reduce Host.gather Host.scatterAdd Host.rsqrt in
/-- The first layer's scaling, bias and cut at zero, of the sums it finds. -/
theorem post1_eq (V : Valuation τ sig (Elt Ideal)) :
    after opsPost1 V (Proc.devRef .tc main_v26)
      = post (V (Proc.devRef .tc main_v19)) (col (V (Proc.devRef .tc main_v11))) (V (Proc.devRef .tc main_arg4)) := by
  simp only [opsPost1, oPo0, oRelu0, List.cons_append, List.nil_append]
  after_results_simp
  simp only [ofBuf_toBuf, ofBuf_v25, toBuf_v26]
  rfl

attribute [local irreducible] Host.reduce Host.gather Host.scatterAdd Host.rsqrt in
/-- The second layer's matrix product. -/
theorem t2_eq (V : Valuation τ sig (Elt Ideal)) :
    after oT2 V (Proc.devRef .tc main_v30)
      = transform (V (Proc.devRef .tc main_v26)) (col (V (Proc.devRef .tc main_v5))) (V (Proc.devRef .tc main_arg5)) := by
  simp only [oT2]
  after_results_simp
  rfl

attribute [local irreducible] Host.reduce Host.gather Host.scatterAdd Host.rsqrt in
/-- The second layer's sum over the edges. -/
theorem agg2_eq (V : Valuation τ sig (Elt Ideal)) :
    after opsAgg2 V (Proc.devRef .tc main_v34)
      = agg (V (Proc.devRef .tc main_v30)) (V (Proc.devRef .tc main_arg1)) (V (Proc.devRef .tc main_arg2)) := by
  simp only [opsAgg2, oTake1, oSc1, List.cons_append, List.nil_append]
  after_results_simp
  simp only [ofBuf_toBuf, ofBuf_arg1, ofBuf_v30, toBuf_v31]
  rfl

attribute [local irreducible] Host.reduce Host.gather Host.scatterAdd Host.rsqrt in
/-- The second layer's scaling, bias and cut at zero. -/
theorem post2_eq (V : Valuation τ sig (Elt Ideal)) :
    after opsPost2 V (Proc.devRef .tc main_v41)
      = post (V (Proc.devRef .tc main_v34)) (col (V (Proc.devRef .tc main_v11))) (V (Proc.devRef .tc main_arg6)) := by
  simp only [opsPost2, oPo1, oRelu1, List.cons_append, List.nil_append]
  after_results_simp
  simp only [ofBuf_toBuf, ofBuf_v40, toBuf_v41]
  rfl

/-! ## The whole line -/

/-- The result buffer after the whole line: each stretch read in turn, from the last, what it reads carried back
    through the stretches that do not write it. -/
theorem out_eq (V : Valuation τ sig (Elt Ideal)) :
    after ops V (Proc.devRef .tc main_v41)
      = G (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  simp only [ops, after_append]
  rw [post2_eq,
    agg2_eq, keepAgg2 _ main_v11 (by decide), keepAgg2 _ main_arg6 (by decide),
    t2_eq, keepT2 _ main_arg1 (by decide), keepT2 _ main_arg2 (by decide), keepT2 _ main_v11 (by decide),
      keepT2 _ main_arg6 (by decide),
    post1_eq, keepPost1 _ main_v5 (by decide), keepPost1 _ main_arg5 (by decide), keepPost1 _ main_arg1 (by decide),
      keepPost1 _ main_arg2 (by decide), keepPost1 _ main_v11 (by decide), keepPost1 _ main_arg6 (by decide),
    agg1_eq, keepAgg1 _ main_v11 (by decide), keepAgg1 _ main_arg4 (by decide), keepAgg1 _ main_v5 (by decide),
      keepAgg1 _ main_arg5 (by decide), keepAgg1 _ main_arg1 (by decide), keepAgg1 _ main_arg2 (by decide),
      keepAgg1 _ main_arg6 (by decide),
    t1_eq, keepT1 _ main_arg1 (by decide), keepT1 _ main_arg2 (by decide), keepT1 _ main_v11 (by decide),
      keepT1 _ main_arg4 (by decide), keepT1 _ main_v5 (by decide), keepT1 _ main_arg5 (by decide), keepT1 _ main_arg6 (by decide),
    degD_eq, keepDegD _ main_arg0 (by decide), keepDegD _ main_v5 (by decide), keepDegD _ main_arg3 (by decide),
      keepDegD _ main_arg1 (by decide), keepDegD _ main_arg2 (by decide), keepDegD _ main_arg4 (by decide),
      keepDegD _ main_arg5 (by decide), keepDegD _ main_arg6 (by decide),
    degS_eq, keepDegS _ main_arg0 (by decide), keepDegS _ main_arg3 (by decide), keepDegS _ main_arg1 (by decide),
      keepDegS _ main_arg2 (by decide), keepDegS _ main_arg4 (by decide), keepDegS _ main_arg5 (by decide),
      keepDegS _ main_arg6 (by decide)]
  rfl

/-- No stretch writes an argument. -/
theorem arg_keep (V : Valuation τ sig (Elt Ideal)) (r : Ref sig .tc)
    (h : r ∉ wDegS ∧ r ∉ wDegD ∧ r ∉ wT1 ∧ r ∉ wAgg1 ∧ r ∉ wPost1 ∧ r ∉ wT2 ∧ r ∉ wAgg2 ∧ r ∉ wPost2) :
    after ops V (Proc.devRef .tc r) = V (Proc.devRef .tc r) := by
  obtain ⟨h1, h2, h3, h4, h5, h6, h7, h8⟩ := h
  simp only [ops, after_append]
  rw [keepPost2 _ r h8, keepAgg2 _ r h7, keepT2 _ r h6, keepPost1 _ r h5, keepAgg1 _ r h4, keepT1 _ r h3, keepDegD _ r h2,
    keepDegS _ r h1]

/-- On every device, from any memory with zero counters: every weakly fair execution of the program terminates with the
    result buffer at the two-layer function of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41)
        = Cert.GraphConv.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v41).trans (out_eq (launchContents m c)),
      (h c main_arg0).trans (arg_keep (launchContents m c) main_arg0 (by decide)),
      (h c main_arg1).trans (arg_keep (launchContents m c) main_arg1 (by decide)),
      (h c main_arg2).trans (arg_keep (launchContents m c) main_arg2 (by decide)),
      (h c main_arg3).trans (arg_keep (launchContents m c) main_arg3 (by decide)),
      (h c main_arg4).trans (arg_keep (launchContents m c) main_arg4 (by decide)),
      (h c main_arg5).trans (arg_keep (launchContents m c) main_arg5 (by decide)),
      (h c main_arg6).trans (arg_keep (launchContents m c) main_arg6 (by decide))⟩)
    (run_seq scopedRefs_eq scopedSems_eq defs main (fun _ => ops) main_eq (fun _ => ops_sub) m ρ (fun _ => ops_fresh))

end Cert.ReferenceIdeal.HandRun

end
-- ==== Proof.lean ====
/-
  A two-layer graph convolution with symmetric degree normalisation: the row-tiled kernel against the whole-array
  program, on the extended reals.

  Both programs compute, per layer, max( A((x · out-norm) × W) · in-norm + b , 0 ), where out-norm and in-norm are
  1 / sqrt(max(1, degree)) of each node as a source and as a destination, and A gathers the rows at the edges' sources
  and adds them up at the edges' destinations. They apply the very same operations for the degree norms and for A. They
  differ only in how the scaling-and-product and the scaling-bias-maximum are carried out: the kernel takes ten
  thousand rows at a time in four tiled regions, the other program all hundred thousand rows at once. Each of those
  two steps acts on every row by itself, so the ten blocks of rows a region writes are the rows of the whole-array
  result (Proof/RegionTransform.lean, Proof/RegionPost.lean), and following the kernel's buffers from the launch to the
  return gives the two-layer function G of Proof/Spec.lean (Proof/KernelChain.lean over the run of Proof/KernelRun.lean);
  the other program's straight line of operations is G read off directly (Proof/RefRun.lean). No law of arithmetic is
  used beyond a sum over the same index set written twice, so nothing is assumed finite.

  The three runs terminate without a fault and leave the arguments as launched; no operation was rewritten in passing
  to the extended reals, so there is nothing further to preserve.
-/
import proofs.«141765_j13494787244283_1_alg».proof.Defs
import proofs.«141765_j13494787244283_1_alg».proof.Proof.Gen.Kernel
import proofs.«141765_j13494787244283_1_alg».proof.Proof.Gen.Kernel.Frame
import proofs.«141765_j13494787244283_1_alg».proof.Proof.Gen.KernelIdeal
import proofs.«141765_j13494787244283_1_alg».proof.Proof.Gen.KernelIdeal.Frame
import proofs.«141765_j13494787244283_1_alg».proof.Proof.Gen.ReferenceIdeal
import proofs.«141765_j13494787244283_1_alg».proof.Proof.Gen.Pre_finite_inputs
import proofs.«141765_j13494787244283_1_alg».proof.Proof.KernelRun
import proofs.«141765_j13494787244283_1_alg».proof.Proof.KernelChain
import proofs.«141765_j13494787244283_1_alg».proof.Proof.RefRun
import Idealize.ShloMosaic.Adequacy
import Idealize.ShloMosaic.Init

noncomputable section

namespace Cert.Proof

open Idealize.ShloMosaic Idealize.SL.Sem

/-- The kernel as printed runs to the end, nothing faulting, its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the whole-array program: its run with the result dropped. -/
theorem frame_referenceIdeal : Cert.frame_ReferenceIdeal := fun m ρ _ =>
  (θ_run Cert.ReferenceIdeal.defs _ _).mono (fun _ h c => (h c).2) (Cert.ReferenceIdeal.HandRun.run m ρ)

/-- Passing to the extended reals rewrote no operation. -/
theorem preserves : Cert.preserves_Kernel_KernelIdeal := trivial

/-- From memories agreeing on the arguments both programs end with the two-layer function of the arguments. -/
theorem algebraic : Cert.algebraic_KernelIdeal_ReferenceIdeal := by
  intro m ρ m' ρ' _ hagree
  refine ⟨fun c => Cert.GraphConv.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.result m ρ c), (h c).2⟩)
      (Cert.KernelIdeal.ResultRun.run (F := Ideal) m ρ)
  · refine (θ_run Cert.ReferenceIdeal.defs _ _).mono (fun r h c => ⟨(h c).1.trans ?_, (h c).2⟩)
      (Cert.ReferenceIdeal.HandRun.run m' ρ')
    rw [(hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
